-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x128 .f32) (main_arg2 : IVec S2x800000 32) (main_arg3 : FVec F S128x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S2000x1 : Shape := ⟨2, ![2000, 1]⟩
abbrev S1x64 : Shape := ⟨2, ![1, 64]⟩
abbrev S1x1 : Shape := ⟨2, ![1, 1]⟩

abbrev nBuf : Space → Nat
  | .hbm => 128
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000, .f32⟩
  | .hbm, ⟨57, _⟩ => ⟨S800000, .f32⟩
  | .hbm, ⟨58, _⟩ => ⟨S800000x1, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x64, .f32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x64, .f32⟩
  | .hbm, ⟨103, _⟩ => ⟨S800000x64, .f32⟩
  | .hbm, ⟨104, _⟩ => ⟨S800000x64, .f32⟩
  | .hbm, ⟨105, _⟩ => ⟨S_, .f32⟩
  | .hbm, ⟨106, _⟩ => ⟨S50000x64, .f32⟩
  | .hbm, ⟨107, _⟩ => ⟨S800000x1, .i32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S_, .i32⟩
  | .hbm, ⟨112, _⟩ => ⟨S800000, .i32⟩
  | .hbm, ⟨113, _⟩ => ⟨S800000, .i1⟩
  | .hbm, ⟨114, _⟩ => ⟨S_, .i32⟩
  | .hbm, ⟨115, _⟩ => ⟨S800000, .i32⟩
  | .hbm, ⟨116, _⟩ => ⟨S800000, .i32⟩
  | .hbm, ⟨117, _⟩ => ⟨S800000, .i32⟩
  | .hbm, ⟨118, _⟩ => ⟨S800000x1, .i32⟩
  | .hbm, ⟨119, _⟩ => ⟨S800000x64, .f32⟩
  | .hbm, ⟨120, _⟩ => ⟨S800000x64, .f32⟩
  | .hbm, ⟨121, _⟩ => ⟨S800000x64, .f32⟩
  | .hbm, ⟨122, _⟩ => ⟨S_, .f32⟩
  | .hbm, ⟨123, _⟩ => ⟨S50000x64, .f32⟩
  | .hbm, ⟨124, _⟩ => ⟨S800000x1, .i32⟩
  | .hbm, ⟨125, _⟩ => ⟨S50000x64, .f32⟩
  | .hbm, ⟨126, _⟩ => ⟨S50000x64, .f32⟩
  | .hbm, ⟨127, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S64, .f32⟩
  | .local _ .vmem, ⟨26, _⟩ => ⟨S2000x64, .f32⟩
  | .local _ .vmem, ⟨27, _⟩ => ⟨S2000x64, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x1, .f32⟩
  | .local _ .vmem, ⟨52, _⟩ => ⟨S2000x1, .f32⟩
  | .local _ .vmem, ⟨53, _⟩ => ⟨S64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S64x1, .f32⟩
  | .local _ .vmem, ⟨61, _⟩ => ⟨S1, .f32⟩
  | .local _ .vmem, ⟨62, _⟩ => ⟨S2000x1, .f32⟩
  | .local _ .vmem, ⟨63, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem4_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64.size a ≤ S64.size a
  hwx7_3 : ∀ i : grid7.Coords, EltTy.bits .f32 = 32 ∨ (Rect.block (s := S64) S64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S50000x64.size a
  hwx7_4 : ∀ i : grid7.Coords, EltTy.bits .f32 = 32 ∨ (Rect.block (s := S50000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S50000x64.size a
  hwx8_1 : ∀ i : grid8.Coords, EltTy.bits .f32 = 32 ∨ (Rect.block (s := S50000x64) S2000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x1.size a ≤ S64x1.size a
  hwx8_2 : ∀ i : grid8.Coords, EltTy.bits .f32 = 32 ∨ (Rect.block (s := S64x1) S64x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1.size a ≤ S1.size a
  hwx8_3 : ∀ i : grid8.Coords, EltTy.bits .f32 = 32 ∨ (Rect.block (s := S1) S1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x1.size a ≤ S50000x1.size a
  hwx8_4 : ∀ i : grid8.Coords, EltTy.bits .f32 = 32 ∨ (Rect.block (s := S50000x1) S2000x1.size (cc8_transform_4 i) (hinb8_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v76) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v17) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg10) S64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v89) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v61) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S2000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg11) S64x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v90) S2000x1.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S128x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x64, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x1, .f32⟩
  | 67 => ⟨S800000x64, .f32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S50000, .f32⟩
  | 74 => ⟨S50000x1, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .i1⟩
  | 84 => ⟨S_, .f32⟩
  | 85 => ⟨S50000x64, .f32⟩
  | 86 => ⟨S50000x64, .f32⟩
  | 87 => ⟨S50000x64, .f32⟩
  | 88 => ⟨S50000x64, .f32⟩
  | 89 => ⟨S_, .f32⟩
  | 90 => ⟨S800000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S_, .f32⟩
  | 99 => ⟨S50000, .f32⟩
  | 100 => ⟨S50000, .i1⟩
  | 101 => ⟨S50000, .f32⟩
  | 102 => ⟨S_, .f32⟩
  | 103 => ⟨S50000, .f32⟩
  | 104 => ⟨S50000, .f32⟩
  | 105 => ⟨S_, .f32⟩
  | 106 => ⟨S_, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S800000x1, .f32⟩
  | 10 => ⟨S800000x64, .f32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S50000, .f32⟩
  | 17 => ⟨S50000x1, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S50000x64, .f32⟩
  | 25 => ⟨S50000x64, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S800000x1, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S50000, .f32⟩
  | 82 => ⟨S50000x1, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .i1⟩
  | 92 => ⟨S_, .f32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .i1⟩
  | 109 => ⟨S50000, .f32⟩
  | 110 => ⟨S_, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S50000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x1, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000, .f32⟩
  | 25 => ⟨S50000x1, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S50000x64, .f32⟩
  | 33 => ⟨S50000x64, .f32⟩
  | 34 => ⟨S50000x1, .f32⟩
  | 35 => ⟨S1x1, .f32⟩
  | 36 => ⟨S50000x1, .f32⟩
  | 37 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_cst_18 : Ref sig .tc := ⟨.hbm, 105, rfl⟩
abbrev main_call2_v0 : Ref sig .tc := ⟨.hbm, 106, rfl⟩
abbrev main_call2_v1 : Ref sig .tc := ⟨.hbm, 107, rfl⟩
abbrev main_v70 : Ref sig .tc := ⟨.hbm, 108, rfl⟩
abbrev main_c_19 : Ref sig .tc := ⟨.hbm, 109, rfl⟩
abbrev main_v71 : Ref sig .tc := ⟨.hbm, 110, rfl⟩
abbrev main_v72 : Ref sig .tc := ⟨.hbm, 111, rfl⟩
abbrev main_c_20 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_23 : Ref sig .tc := ⟨.hbm, 128, rfl⟩
abbrev main_v86 : Ref sig .tc := ⟨.hbm, 129, rfl⟩
abbrev main_v87 : Ref sig .tc := ⟨.hbm, 130, rfl⟩
abbrev main_c_24 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_25 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_26 : Ref sig .tc := ⟨.hbm, 154, rfl⟩
abbrev main_v109 : Ref sig .tc := ⟨.hbm, 155, rfl⟩
abbrev main_cst_27 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_28 : Ref sig .tc := ⟨.hbm, 160, rfl⟩
abbrev main_v113 : Ref sig .tc := ⟨.hbm, 161, rfl⟩
abbrev main_v114 : Ref sig .tc := ⟨.hbm, 162, rfl⟩
abbrev main_cst_29 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_30 : Ref sig .tc := ⟨.hbm, 167, rfl⟩
abbrev main_v118 : Ref sig .tc := ⟨.hbm, 168, rfl⟩
abbrev main_v119 : Ref sig .tc := ⟨.hbm, 169, rfl⟩
abbrev main_cst_31 : Ref sig .tc := ⟨.hbm, 170, rfl⟩
abbrev main_call3_v0 : Ref sig .tc := ⟨.hbm, 171, rfl⟩
abbrev main_call3_v1 : Ref sig .tc := ⟨.hbm, 172, rfl⟩
abbrev main_v120 : Ref sig .tc := ⟨.hbm, 173, rfl⟩
abbrev main_c_32 : Ref sig .tc := ⟨.hbm, 174, rfl⟩
abbrev main_v121 : Ref sig .tc := ⟨.hbm, 175, rfl⟩
abbrev main_v122 : Ref sig .tc := ⟨.hbm, 176, rfl⟩
abbrev main_c_33 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_34 : Ref sig .tc := ⟨.hbm, 183, rfl⟩
abbrev main_v128 : Ref sig .tc := ⟨.hbm, 184, rfl⟩
abbrev main_v129 : Ref sig .tc := ⟨.hbm, 185, rfl⟩
abbrev main_c_35 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_c_36 : Ref sig .tc := ⟨.hbm, 193, rfl⟩
abbrev main_v136 : Ref sig .tc := ⟨.hbm, 194, rfl⟩
abbrev main_v137 : Ref sig .tc := ⟨.hbm, 195, rfl⟩
abbrev main_c_37 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_38 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_39 : Ref sig .tc := ⟨.hbm, 217, rfl⟩
abbrev main_v157 : Ref sig .tc := ⟨.hbm, 218, rfl⟩
abbrev main_v158 : Ref sig .tc := ⟨.hbm, 219, rfl⟩
abbrev main_cst_40 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_41 : Ref sig .tc := ⟨.hbm, 225, rfl⟩
abbrev main_v163 : Ref sig .tc := ⟨.hbm, 226, rfl⟩
abbrev main_cst_42 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_43 : Ref sig .tc := ⟨.hbm, 231, rfl⟩
abbrev main_v167 : Ref sig .tc := ⟨.hbm, 232, rfl⟩
abbrev main_v168 : Ref sig .tc := ⟨.hbm, 233, rfl⟩
abbrev main_cst_44 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_45 : Ref sig .tc := ⟨.hbm, 238, rfl⟩
abbrev main_v172 : Ref sig .tc := ⟨.hbm, 239, rfl⟩
abbrev main_v173 : Ref sig .tc := ⟨.hbm, 240, rfl⟩
abbrev main_cst_46 : Ref sig .tc := ⟨.hbm, 241, rfl⟩
abbrev main_call5_v0 : Ref sig .tc := ⟨.hbm, 242, rfl⟩
abbrev main_call5_v1 : Ref sig .tc := ⟨.hbm, 243, rfl⟩
abbrev main_v174 : Ref sig .tc := ⟨.hbm, 244, rfl⟩
abbrev main_c_47 : Ref sig .tc := ⟨.hbm, 245, rfl⟩
abbrev main_v175 : Ref sig .tc := ⟨.hbm, 246, rfl⟩
abbrev main_v176 : Ref sig .tc := ⟨.hbm, 247, rfl⟩
abbrev main_c_48 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_c_49 : Ref sig .tc := ⟨.hbm, 254, rfl⟩
abbrev main_v182 : Ref sig .tc := ⟨.hbm, 255, rfl⟩
abbrev main_v183 : Ref sig .tc := ⟨.hbm, 256, rfl⟩
abbrev main_c_50 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_c_51 : Ref sig .tc := ⟨.hbm, 264, rfl⟩
abbrev main_v190 : Ref sig .tc := ⟨.hbm, 265, rfl⟩
abbrev main_v191 : Ref sig .tc := ⟨.hbm, 266, rfl⟩
abbrev main_c_52 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_53 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The kernel program's run with its RESULT named: from any memory with zero counters every weakly fair execution of
  @main on the TensorCores terminates, nothing faulting, the thirteen argument arrays as launched and the result
  array `main_v90` at what the last segment boundary holds for it (`Gen.W16`: the fold of @main's sixteen segments —
  host stretches and the nine regions — over the launch memory). The segments, their boundary contents and the launch
  are the generated frame module's; only the last reading of the final thread state is different: besides the
  arguments it reads the result buffer.
-/
import proofs.«125793_j59425167508077_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, the result buffer read off the last boundary's contents beside the arguments. -/
theorem run_value : θ_run defs (onTc (τ := τ) (main (F := F))) ⟨m, fun _ => 0, ρ⟩ (fun r => ∀ c : Dev nD,
      r.2.mem ((c.tc : Thread nD τ).loc main_v90) = W16 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v90 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.Hand

end
-- ==== Proof.KHost.lean ====
/-
  How contents travel through the kernel program's host stretches and regions, for ANY contents `V` a stretch starts
  from. A stretch leaves every buffer it does not write as it found it (`keepK`, decided once per stretch from the list
  of buffers its operations write); a region leaves every buffer but its one output array as it found it
  (`regP_keep`: an array that is no window's is untouched, and an input window's array is written back to what was
  read). The node and edge data every layer reads — the source and target node of every edge, the column of squared
  inverse root degrees, the edges' normalisation column — and the thirteen arguments are in no later write set, so
  they reach every later segment boundary unchanged (`sameJ`).
-/
import proofs.«125793_j59425167508077_1_alg».proof.Proof.Gen.KernelIdeal.Frame
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]

/-! ## What each host stretch writes, and what it therefore keeps -/

/-- The buffers stretch `hostOps0` writes. -/
abbrev w0 : List (Ref sig .tc) := [main_v0, main_v1, main_v2, main_v3, main_cst, main_v4, main_cst_0, main_v5, main_v6, main_v7, main_cst_1, main_v8, main_v9, main_cst_2, main_v10, main_v11, main_v12, main_cst_3, main_v13, main_v14, main_cst_4]
theorem writes0 : (hostOps0 : List (HloOp τ sig (Elt F))).Forall fun op => op.writes ⊆ (w0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep0 (V : Valuation τ sig (Elt F)) (r : Ref sig .tc) (h : r ∉ w0) :
    StableHlo.after hostOps0 V (Proc.devRef .tc r) = V (Proc.devRef .tc r) :=
  StableHlo.after_of_writes_sub hostOps0 V writes0 h

/-- The buffers stretch `hostOps0_1` writes. -/
abbrev w0_1 : List (Ref sig .tc) := [main_call0_v0, main_call0_v1, main_v15]
theorem writes0_1 : (hostOps0_1 : List (HloOp τ sig (Elt F))).Forall fun op => op.writes ⊆ (w0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep0_1 (V : Valuation τ sig (Elt F)) (r : Ref sig .tc) (h : r ∉ w0_1) :
    StableHlo.after hostOps0_1 V (Proc.devRef .tc r) = V (Proc.devRef .tc r) :=
  StableHlo.after_of_writes_sub hostOps0_1 V writes0_1 h

/-- The buffers stretch `hostOps0_2` writes. -/
abbrev w0_2 : List (Ref sig .tc) := [main_v16, main_v17, main_c, main_v18, main_v19, main_c_5, main_v20, main_v21, main_v22, main_v23, main_v24, main_c_6, main_v25, main_v26, main_c_7, main_v27, main_v28, main_v29, main_v30, main_v31, main_v32, main_v33]
theorem writes0_2 : (hostOps0_2 : List (HloOp τ sig (Elt F))).Forall fun op => op.writes ⊆ (w0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep0_2 (V : Valuation τ sig (Elt F)) (r : Ref sig .tc) (h : r ∉ w0_2) :
    StableHlo.after hostOps0_2 V (Proc.devRef .tc r) = V (Proc.devRef .tc r) :=
  StableHlo.after_of_writes_sub hostOps0_2 V writes0_2 h

/-- The buffers stretch `hostOps1` writes. -/
abbrev w1 : List (Ref sig .tc) := [main_c_8, main_v35, main_v36, main_c_9, main_v37, main_v38, main_v39, main_v40, main_v41, main_v42, main_v43, main_cst_10, main_v44, main_v45, main_v46]
theorem writes1 : (hostOps1 : List (HloOp τ sig (Elt F))).Forall fun op => op.writes ⊆ (w1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep1 (V : Valuation τ sig (Elt F)) (r : Ref sig .tc) (h : r ∉ w1) :
    StableHlo.after hostOps1 V (Proc.devRef .tc r) = V (Proc.devRef .tc r) :=
  StableHlo.after_of_writes_sub hostOps1 V writes1 h

/-- The buffers stretch `hostOps3` writes. -/
abbrev w3 : List (Ref sig .tc) := [main_c_11, main_v49, main_v50, main_c_12, main_v51, main_v52, main_v53, main_v54, main_v55, main_v56, main_v57, main_cst_13, main_v58, main_v59, main_v60]
theorem writes3 : (hostOps3 : List (HloOp τ sig (Elt F))).Forall fun op => op.writes ⊆ (w3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep3 (V : Valuation τ sig (Elt F)) (r : Ref sig .tc) (h : r ∉ w3) :
    StableHlo.after hostOps3 V (Proc.devRef .tc r) = V (Proc.devRef .tc r) :=
  StableHlo.after_of_writes_sub hostOps3 V writes3 h

/-- The buffers stretch `hostOps5` writes. -/
abbrev w5 : List (Ref sig .tc) := [main_c_14, main_v63, main_v64, main_c_15, main_v65, main_v66, main_v67, main_v68, main_v69, main_v70, main_v71, main_cst_16, main_v72, main_v73, main_v74]
theorem writes5 : (hostOps5 : List (HloOp τ sig (Elt F))).Forall fun op => op.writes ⊆ (w5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep5 (V : Valuation τ sig (Elt F)) (r : Ref sig .tc) (h : r ∉ w5) :
    StableHlo.after hostOps5 V (Proc.devRef .tc r) = V (Proc.devRef .tc r) :=
  StableHlo.after_of_writes_sub hostOps5 V writes5 h

/-- The buffers stretch `hostOps7` writes. -/
abbrev w7 : List (Ref sig .tc) := [main_c_17, main_v77, main_v78, main_c_18, main_v79, main_v80, main_v81, main_v82, main_v83, main_v84, main_v85, main_cst_19, main_v86, main_v87, main_v88]
theorem writes7 : (hostOps7 : List (HloOp τ sig (Elt F))).Forall fun op => op.writes ⊆ (w7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem keep7 (V : Valuation τ sig (Elt F)) (r : Ref sig .tc) (h : r ∉ w7) :
    StableHlo.after hostOps7 V (Proc.devRef .tc r) = V (Proc.devRef .tc r) :=
  StableHlo.after_of_writes_sub hostOps7 V writes7 h

/-! ## What each region keeps -/

variable (m : (ℓ : Loc nD τ sig) → Buf (Elt F) ℓ) (ρ : Dev nD → PrngReg) (c : Dev nD)

/-- Region 0 changes no buffer but its output array `main_v34`. -/
theorem reg0_keep (b : Ref sig .tc) (hb : b ≠ main_v34) : W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg3
  · subst h1; exact (W4_arr m ρ c 1).trans (((dat0 (V3 m ρ) c).arrAt_in 1 rfl _).trans (A_eq0 (V3 m ρ) c 1))
  exact W4_of_ne m ρ c b (fun w => match w with | ⟨0, _⟩ => Ne.symm h0 | ⟨1, _⟩ => Ne.symm h1 | ⟨2, _⟩ => Ne.symm hb)

/-- Region 1 changes no buffer but its output array `main_v47`. -/
theorem reg1_keep (b : Ref sig .tc) (hb : b ≠ main_v47) : W6 m ρ c (Proc.devRef .tc b) = W5 m ρ c (Proc.devRef .tc b) := by
  by_cases h0 : b = main_v46
  · subst h0; exact (W6_arr m ρ c 0).trans (((dat1 (V5 m ρ) c).arrAt_in 0 rfl _).trans (A_eq1 (V5 m ρ) c 0))
  by_cases h1 : b = main_v34
  · subst h1; exact (W6_arr m ρ c 1).trans (((dat1 (V5 m ρ) c).arrAt_in 1 rfl _).trans (A_eq1 (V5 m ρ) c 1))
  by_cases h2 : b = main_v17
  · subst h2; exact (W6_arr m ρ c 2).trans (((dat1 (V5 m ρ) c).arrAt_in 2 rfl _).trans (A_eq1 (V5 m ρ) c 2))
  by_cases h3 : b = main_arg4
  · subst h3; exact (W6_arr m ρ c 3).trans (((dat1 (V5 m ρ) c).arrAt_in 3 rfl _).trans (A_eq1 (V5 m ρ) c 3))
  exact W6_of_ne m ρ c b (fun w => match w with | ⟨0, _⟩ => Ne.symm h0 | ⟨1, _⟩ => Ne.symm h1 | ⟨2, _⟩ => Ne.symm h2 | ⟨3, _⟩ => Ne.symm h3 | ⟨4, _⟩ => Ne.symm hb)

/-- Region 2 changes no buffer but its output array `main_v48`. -/
theorem reg2_keep (b : Ref sig .tc) (hb : b ≠ main_v48) : W7 m ρ c (Proc.devRef .tc b) = W6 m ρ c (Proc.devRef .tc b) := by
  by_cases h0 : b = main_v47
  · subst h0; exact (W7_arr m ρ c 0).trans (((dat2 (V6 m ρ) c).arrAt_in 0 rfl _).trans (A_eq2 (V6 m ρ) c 0))
  by_cases h1 : b = main_arg5
  · subst h1; exact (W7_arr m ρ c 1).trans (((dat2 (V6 m ρ) c).arrAt_in 1 rfl _).trans (A_eq2 (V6 m ρ) c 1))
  exact W7_of_ne m ρ c b (fun w => match w with | ⟨0, _⟩ => Ne.symm h0 | ⟨1, _⟩ => Ne.symm h1 | ⟨2, _⟩ => Ne.symm hb)

/-- Region 3 changes no buffer but its output array `main_v61`. -/
theorem reg3_keep (b : Ref sig .tc) (hb : b ≠ main_v61) : W9 m ρ c (Proc.devRef .tc b) = W8 m ρ c (Proc.devRef .tc b) := by
  by_cases h0 : b = main_v60
  · subst h0; exact (W9_arr m ρ c 0).trans (((dat3 (V8 m ρ) c).arrAt_in 0 rfl _).trans (A_eq3 (V8 m ρ) c 0))
  by_cases h1 : b = main_v48
  · subst h1; exact (W9_arr m ρ c 1).trans (((dat3 (V8 m ρ) c).arrAt_in 1 rfl _).trans (A_eq3 (V8 m ρ) c 1))
  by_cases h2 : b = main_v17
  · subst h2; exact (W9_arr m ρ c 2).trans (((dat3 (V8 m ρ) c).arrAt_in 2 rfl _).trans (A_eq3 (V8 m ρ) c 2))
  by_cases h3 : b = main_arg6
  · subst h3; exact (W9_arr m ρ c 3).trans (((dat3 (V8 m ρ) c).arrAt_in 3 rfl _).trans (A_eq3 (V8 m ρ) c 3))
  exact W9_of_ne m ρ c b (fun w => match w with | ⟨0, _⟩ => Ne.symm h0 | ⟨1, _⟩ => Ne.symm h1 | ⟨2, _⟩ => Ne.symm h2 | ⟨3, _⟩ => Ne.symm h3 | ⟨4, _⟩ => Ne.symm hb)

/-- Region 4 changes no buffer but its output array `main_v62`. -/
theorem reg4_keep (b : Ref sig .tc) (hb : b ≠ main_v62) : W10 m ρ c (Proc.devRef .tc b) = W9 m ρ c (Proc.devRef .tc b) := by
  by_cases h0 : b = main_arg1
  · subst h0; exact (W10_arr m ρ c 0).trans (((dat4 (V9 m ρ) c).arrAt_in 0 rfl _).trans (A_eq4 (V9 m ρ) c 0))
  by_cases h1 : b = main_arg7
  · subst h1; exact (W10_arr m ρ c 1).trans (((dat4 (V9 m ρ) c).arrAt_in 1 rfl _).trans (A_eq4 (V9 m ρ) c 1))
  exact W10_of_ne m ρ c b (fun w => match w with | ⟨0, _⟩ => Ne.symm h0 | ⟨1, _⟩ => Ne.symm h1 | ⟨2, _⟩ => Ne.symm hb)

/-- Region 5 changes no buffer but its output array `main_v75`. -/
theorem reg5_keep (b : Ref sig .tc) (hb : b ≠ main_v75) : W12 m ρ c (Proc.devRef .tc b) = W11 m ρ c (Proc.devRef .tc b) := by
  by_cases h0 : b = main_v74
  · subst h0; exact (W12_arr m ρ c 0).trans (((dat5 (V11 m ρ) c).arrAt_in 0 rfl _).trans (A_eq5 (V11 m ρ) c 0))
  by_cases h1 : b = main_v62
  · subst h1; exact (W12_arr m ρ c 1).trans (((dat5 (V11 m ρ) c).arrAt_in 1 rfl _).trans (A_eq5 (V11 m ρ) c 1))
  by_cases h2 : b = main_v17
  · subst h2; exact (W12_arr m ρ c 2).trans (((dat5 (V11 m ρ) c).arrAt_in 2 rfl _).trans (A_eq5 (V11 m ρ) c 2))
  by_cases h3 : b = main_arg8
  · subst h3; exact (W12_arr m ρ c 3).trans (((dat5 (V11 m ρ) c).arrAt_in 3 rfl _).trans (A_eq5 (V11 m ρ) c 3))
  exact W12_of_ne m ρ c b (fun w => match w with | ⟨0, _⟩ => Ne.symm h0 | ⟨1, _⟩ => Ne.symm h1 | ⟨2, _⟩ => Ne.symm h2 | ⟨3, _⟩ => Ne.symm h3 | ⟨4, _⟩ => Ne.symm hb)

/-- Region 6 changes no buffer but its output array `main_v76`. -/
theorem reg6_keep (b : Ref sig .tc) (hb : b ≠ main_v76) : W13 m ρ c (Proc.devRef .tc b) = W12 m ρ c (Proc.devRef .tc b) := by
  by_cases h0 : b = main_v75
  · subst h0; exact (W13_arr m ρ c 0).trans (((dat6 (V12 m ρ) c).arrAt_in 0 rfl _).trans (A_eq6 (V12 m ρ) c 0))
  by_cases h1 : b = main_arg9
  · subst h1; exact (W13_arr m ρ c 1).trans (((dat6 (V12 m ρ) c).arrAt_in 1 rfl _).trans (A_eq6 (V12 m ρ) c 1))
  exact W13_of_ne m ρ c b (fun w => match w with | ⟨0, _⟩ => Ne.symm h0 | ⟨1, _⟩ => Ne.symm h1 | ⟨2, _⟩ => Ne.symm hb)

/-- Region 7 changes no buffer but its output array `main_v89`. -/
theorem reg7_keep (b : Ref sig .tc) (hb : b ≠ main_v89) : W15 m ρ c (Proc.devRef .tc b) = W14 m ρ c (Proc.devRef .tc b) := by
  by_cases h0 : b = main_v88
  · subst h0; exact (W15_arr m ρ c 0).trans (((dat7 (V14 m ρ) c).arrAt_in 0 rfl _).trans (A_eq7 (V14 m ρ) c 0))
  by_cases h1 : b = main_v76
  · subst h1; exact (W15_arr m ρ c 1).trans (((dat7 (V14 m ρ) c).arrAt_in 1 rfl _).trans (A_eq7 (V14 m ρ) c 1))
  by_cases h2 : b = main_v17
  · subst h2; exact (W15_arr m ρ c 2).trans (((dat7 (V14 m ρ) c).arrAt_in 2 rfl _).trans (A_eq7 (V14 m ρ) c 2))
  by_cases h3 : b = main_arg10
  · subst h3; exact (W15_arr m ρ c 3).trans (((dat7 (V14 m ρ) c).arrAt_in 3 rfl _).trans (A_eq7 (V14 m ρ) c 3))
  exact W15_of_ne m ρ c b (fun w => match w with | ⟨0, _⟩ => Ne.symm h0 | ⟨1, _⟩ => Ne.symm h1 | ⟨2, _⟩ => Ne.symm h2 | ⟨3, _⟩ => Ne.symm h3 | ⟨4, _⟩ => Ne.symm hb)

/-- Region 8 changes no buffer but its output array `main_v90`. -/
theorem reg8_keep (b : Ref sig .tc) (hb : b ≠ main_v90) : W16 m ρ c (Proc.devRef .tc b) = W15 m ρ c (Proc.devRef .tc b) := by
  by_cases h0 : b = main_v61
  · subst h0; exact (W16_arr m ρ c 0).trans (((dat8 (V15 m ρ) c).arrAt_in 0 rfl _).trans (A_eq8 (V15 m ρ) c 0))
  by_cases h1 : b = main_v89
  · subst h1; exact (W16_arr m ρ c 1).trans (((dat8 (V15 m ρ) c).arrAt_in 1 rfl _).trans (A_eq8 (V15 m ρ) c 1))
  by_cases h2 : b = main_arg11
  · subst h2; exact (W16_arr m ρ c 2).trans (((dat8 (V15 m ρ) c).arrAt_in 2 rfl _).trans (A_eq8 (V15 m ρ) c 2))
  by_cases h3 : b = main_arg12
  · subst h3; exact (W16_arr m ρ c 3).trans (((dat8 (V15 m ρ) c).arrAt_in 3 rfl _).trans (A_eq8 (V15 m ρ) c 3))
  exact W16_of_ne m ρ c b (fun w => match w with | ⟨0, _⟩ => Ne.symm h0 | ⟨1, _⟩ => Ne.symm h1 | ⟨2, _⟩ => Ne.symm h2 | ⟨3, _⟩ => Ne.symm h3 | ⟨4, _⟩ => Ne.symm hb)

/-! ## The carried buffers -/

/-- The thirteen arguments and the four pieces of node and edge data that every layer reads. -/
abbrev carried : List (Ref sig .tc) :=
  [main_arg0, main_arg1, main_arg2, main_arg3, main_arg4, main_arg5, main_arg6, main_arg7, main_arg8, main_arg9, main_arg10,
   main_arg11, main_arg12, main_v1, main_v3, main_v17, main_v33]

theorem same4 (b : Ref sig .tc) (hb : b ∈ carried) : W4 m ρ c (Proc.devRef .tc b) = W3 m ρ c (Proc.devRef .tc b) :=
  (reg0_keep m ρ c b (fun h => absurd (h ▸ hb) (by decide))).trans (rfl)
theorem same5 (b : Ref sig .tc) (hb : b ∈ carried) : W5 m ρ c (Proc.devRef .tc b) = W3 m ρ c (Proc.devRef .tc b) :=
  (keep1 (W4 m ρ c) b ((by decide : ∀ r ∈ carried, r ∉ w1) b hb)).trans (same4 m ρ c b hb)
theorem same6 (b : Ref sig .tc) (hb : b ∈ carried) : W6 m ρ c (Proc.devRef .tc b) = W3 m ρ c (Proc.devRef .tc b) :=
  (reg1_keep m ρ c b (fun h => absurd (h ▸ hb) (by decide))).trans (same5 m ρ c b hb)
theorem same7 (b : Ref sig .tc) (hb : b ∈ carried) : W7 m ρ c (Proc.devRef .tc b) = W3 m ρ c (Proc.devRef .tc b) :=
  (reg2_keep m ρ c b (fun h => absurd (h ▸ hb) (by decide))).trans (same6 m ρ c b hb)
theorem same8 (b : Ref sig .tc) (hb : b ∈ carried) : W8 m ρ c (Proc.devRef .tc b) = W3 m ρ c (Proc.devRef .tc b) :=
  (keep3 (W7 m ρ c) b ((by decide : ∀ r ∈ carried, r ∉ w3) b hb)).trans (same7 m ρ c b hb)
theorem same9 (b : Ref sig .tc) (hb : b ∈ carried) : W9 m ρ c (Proc.devRef .tc b) = W3 m ρ c (Proc.devRef .tc b) :=
  (reg3_keep m ρ c b (fun h => absurd (h ▸ hb) (by decide))).trans (same8 m ρ c b hb)
theorem same10 (b : Ref sig .tc) (hb : b ∈ carried) : W10 m ρ c (Proc.devRef .tc b) = W3 m ρ c (Proc.devRef .tc b) :=
  (reg4_keep m ρ c b (fun h => absurd (h ▸ hb) (by decide))).trans (same9 m ρ c b hb)
theorem same11 (b : Ref sig .tc) (hb : b ∈ carried) : W11 m ρ c (Proc.devRef .tc b) = W3 m ρ c (Proc.devRef .tc b) :=
  (keep5 (W10 m ρ c) b ((by decide : ∀ r ∈ carried, r ∉ w5) b hb)).trans (same10 m ρ c b hb)
theorem same12 (b : Ref sig .tc) (hb : b ∈ carried) : W12 m ρ c (Proc.devRef .tc b) = W3 m ρ c (Proc.devRef .tc b) :=
  (reg5_keep m ρ c b (fun h => absurd (h ▸ hb) (by decide))).trans (same11 m ρ c b hb)
theorem same13 (b : Ref sig .tc) (hb : b ∈ carried) : W13 m ρ c (Proc.devRef .tc b) = W3 m ρ c (Proc.devRef .tc b) :=
  (reg6_keep m ρ c b (fun h => absurd (h ▸ hb) (by decide))).trans (same12 m ρ c b hb)
theorem same14 (b : Ref sig .tc) (hb : b ∈ carried) : W14 m ρ c (Proc.devRef .tc b) = W3 m ρ c (Proc.devRef .tc b) :=
  (keep7 (W13 m ρ c) b ((by decide : ∀ r ∈ carried, r ∉ w7) b hb)).trans (same13 m ρ c b hb)
theorem same15 (b : Ref sig .tc) (hb : b ∈ carried) : W15 m ρ c (Proc.devRef .tc b) = W3 m ρ c (Proc.devRef .tc b) :=
  (reg7_keep m ρ c b (fun h => absurd (h ▸ hb) (by decide))).trans (same14 m ρ c b hb)

/-- No stretch before region 0 writes an argument. -/
theorem arg_at3 (b : Ref sig .tc) (hb : b ∈ ([main_arg0, main_arg1, main_arg2, main_arg3, main_arg4, main_arg5, main_arg6, main_arg7, main_arg8, main_arg9, main_arg10, main_arg11, main_arg12] : List (Ref sig .tc))) :
    W3 m ρ c (Proc.devRef .tc b) = m ((c : Thread nD τ).loc b) :=
  (keep0_2 (W2 m ρ c) b ((by decide : ∀ r ∈ ([main_arg0, main_arg1, main_arg2, main_arg3, main_arg4, main_arg5, main_arg6, main_arg7, main_arg8, main_arg9, main_arg10, main_arg11, main_arg12] : List (Ref sig .tc)), r ∉ w0_2) b hb)).trans
  ((keep0_1 (W1 m ρ c) b ((by decide : ∀ r ∈ ([main_arg0, main_arg1, main_arg2, main_arg3, main_arg4, main_arg5, main_arg6, main_arg7, main_arg8, main_arg9, main_arg10, main_arg11, main_arg12] : List (Ref sig .tc)), r ∉ w0_1) b hb)).trans
  (keep0 (W0 m ρ c) b ((by decide : ∀ r ∈ ([main_arg0, main_arg1, main_arg2, main_arg3, main_arg4, main_arg5, main_arg6, main_arg7, main_arg8, main_arg9, main_arg10, main_arg11, main_arg12] : List (Ref sig .tc)), r ∉ w0) b hb)))

end Cert.KernelIdeal.Hand

end
-- ==== Proof.KHostVal.lean ====
/-
  What the kernel program's host stretches compute, for ANY contents `V` a stretch starts from, and what the buffers
  every layer reads hold when the first region is entered.

  Each of the four later stretches is one aggregation along the edges (`aggT`) of the projection the region before
  it left. The three stretches before the first region compute, from the edge array alone, the source and target node of
  every edge, the inverse root degrees (a scatter-add of ones by target node, plus one for the self loop, `1 / sqrt`
  where the degree is positive), their squares as a column and the edges' normalisation `dinv[src] · dinv[dst]` as a
  column: the reference's own operations of the same argument, so they are stated through the reference's stages
  (`val_main_v1`, `_v3`, `_v16`, `_v45`, `_v31`); the two columns are a `reshape` here where the reference broadcasts.
-/
import proofs.«125793_j59425167508077_1_alg».proof.Proof.KHost
import proofs.«125793_j59425167508077_1_alg».proof.Proof.RefReadP
import Idealize.ShloMosaic.PureOps.Ideal

noncomputable section

namespace Cert.KernelIdeal.Hand

open Cert.KernelIdeal Cert.KernelIdeal.Gen
open Idealize.ShloMosaic Idealize.ShloMosaic.TcCoe Idealize.SL.Sem

/-- Edge-indexed integers; an edge-indexed column; node-indexed rows and column; the edge array. -/
abbrev IE : Type := (⟨S800000, .i32⟩ : BufTy).Contents (Elt Ideal)
abbrev CE : Type := (⟨S800000x1, .f32⟩ : BufTy).Contents (Elt Ideal)
abbrev MN : Type := (⟨S50000x64, .f32⟩ : BufTy).Contents (Elt Ideal)
abbrev CN : Type := (⟨S50000x1, .f32⟩ : BufTy).Contents (Elt Ideal)
abbrev EI : Type := (⟨S2x800000, .i32⟩ : BufTy).Contents (Elt Ideal)

/-- An edge's node index as the gathers take it: a negative index wrapped by the node count. -/
def wrapIdx (s : IE) : IE :=
  select (cmpi .slt s (broadcastInDim S800000 ![] bcast_S_S800000 (constantI S_ 32 0#32)))
    (addi s (broadcastInDim S800000 ![] bcast_S_S800000 (constantI S_ 32 50000#32))) s

/-- One aggregation along the edges as a host stretch spells it: the rows of `h` gathered at the edges' source nodes
    `s`, scaled by the edge column `n`, summed into the rows of the target nodes `d`, onto zeros. -/
def aggT (s d : IE) (n : CE) (h : MN) : MN :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (mulf (Host.gather gather_S50000x64_S800000x1_S800000x64_1_0_n_n_0_1_164 h
        (broadcastInDim S800000x1 ![0] bcast_S800000_S800000x1_0 (wrapIdx s)))
      (broadcastInDim S800000x64 ![0, 1] bcast_S800000x1_S800000x64_0_1 n))

section Stretches
variable (V : Valuation τ sig (Elt Ideal))

/-! ## The four aggregation stretches -/

set_option maxHeartbeats 800000 in
theorem v46_of : StableHlo.after hostOps1 V (Proc.devRef .tc main_v46)
    = aggT (V (Proc.devRef .tc main_v1)) (V (Proc.devRef .tc main_v3)) (V (Proc.devRef .tc main_v33)) (V (Proc.devRef .tc main_v34)) := by
  after_results; rfl
set_option maxHeartbeats 800000 in
theorem v60_of : StableHlo.after hostOps3 V (Proc.devRef .tc main_v60)
    = aggT (V (Proc.devRef .tc main_v1)) (V (Proc.devRef .tc main_v3)) (V (Proc.devRef .tc main_v33)) (V (Proc.devRef .tc main_v48)) := by
  after_results; rfl
set_option maxHeartbeats 800000 in
theorem v74_of : StableHlo.after hostOps5 V (Proc.devRef .tc main_v74)
    = aggT (V (Proc.devRef .tc main_v1)) (V (Proc.devRef .tc main_v3)) (V (Proc.devRef .tc main_v33)) (V (Proc.devRef .tc main_v62)) := by
  after_results; rfl
set_option maxHeartbeats 800000 in
theorem v88_of : StableHlo.after hostOps7 V (Proc.devRef .tc main_v88)
    = aggT (V (Proc.devRef .tc main_v1)) (V (Proc.devRef .tc main_v3)) (V (Proc.devRef .tc main_v33)) (V (Proc.devRef .tc main_v76)) := by
  after_results; rfl

/-! ## The stretches before the first region -/

set_option maxHeartbeats 800000 in
theorem v1_of : StableHlo.after hostOps0 V (Proc.devRef .tc main_v1) = Cert.ReferenceIdeal.Read.val_main_v1 (F := Ideal) (V (Proc.devRef .tc main_arg2)) := by
  after_results; rfl
set_option maxHeartbeats 800000 in
theorem v3_of : StableHlo.after hostOps0 V (Proc.devRef .tc main_v3) = Cert.ReferenceIdeal.Read.val_main_v3 (F := Ideal) (V (Proc.devRef .tc main_arg2)) := by
  after_results; rfl
set_option maxHeartbeats 800000 in
theorem v11_of : StableHlo.after hostOps0 V (Proc.devRef .tc main_v11) = Cert.ReferenceIdeal.Read.val_main_v12 (F := Ideal) (V (Proc.devRef .tc main_arg2)) := by
  after_results; rfl
set_option maxHeartbeats 800000 in
theorem v14_of : StableHlo.after hostOps0 V (Proc.devRef .tc main_v14) = Cert.ReferenceIdeal.Read.val_main_v15 (F := Ideal) (V (Proc.devRef .tc main_arg2)) := by
  after_results; rfl
set_option maxHeartbeats 800000 in
theorem cst4_of : StableHlo.after hostOps0 V (Proc.devRef .tc main_cst_4) = Cert.ReferenceIdeal.Read.val_main_cst_4 (F := Ideal) := by
  after_results; rfl
set_option maxHeartbeats 800000 in
theorem v15_of : StableHlo.after hostOps0_1 V (Proc.devRef .tc main_v15)
    = select (V (Proc.devRef .tc main_v11)) (V (Proc.devRef .tc main_v14)) (broadcastInDim S50000 ![] bcast_S_S50000 (id (V (Proc.devRef .tc main_cst_4)))) := by
  after_results; rfl
set_option maxHeartbeats 800000 in
theorem v17_of : StableHlo.after hostOps0_2 V (Proc.devRef .tc main_v17)
    = (shapeCast S50000x1 (mulf (V (Proc.devRef .tc main_v15) : FVec Ideal S50000 .f32) (V (Proc.devRef .tc main_v15) : FVec Ideal S50000 .f32) : FVec Ideal S50000 .f32) shapeCasts_S50000_S50000x1 : CN) := by
  after_results; rfl
set_option maxHeartbeats 4000000 in
theorem v33_of : StableHlo.after hostOps0_2 V (Proc.devRef .tc main_v33)
    = (shapeCast S800000x1 (mulf
        (Host.gather gather_S50000_S800000x1_S800000_n_0_n_n_0_1_1 (V (Proc.devRef .tc main_v15) : FVec Ideal S50000 .f32) (broadcastInDim S800000x1 ![0] bcast_S800000_S800000x1_0 (wrapIdx (V (Proc.devRef .tc main_v1)))) : FVec Ideal S800000 .f32)
        (Host.gather gather_S50000_S800000x1_S800000_n_0_n_n_0_1_1 (V (Proc.devRef .tc main_v15) : FVec Ideal S50000 .f32) (broadcastInDim S800000x1 ![0] bcast_S800000_S800000x1_0 (wrapIdx (V (Proc.devRef .tc main_v3)))) : FVec Ideal S800000 .f32))
      shapeCasts_S800000_S800000x1 : CE) := by
  after_results_simp
  rfl

end Stretches

/-! ## What the first region finds -/

variable (m : (ℓ : Loc nD τ sig) → Buf (Elt Ideal) ℓ) (ρ : Dev nD → PrngReg) (c : Dev nD)

/-- The edge array as launched. -/
abbrev edges : EI := m ((c : Thread nD τ).loc main_arg2)

/-- The edges' normalisation column and the nodes' column of squared inverse root degrees. -/
def ncolK (x2 : EI) : CE := shapeCast S800000x1 (Cert.ReferenceIdeal.Read.val_main_v31 (F := Ideal) x2) shapeCasts_S800000_S800000x1
def dcolK (x2 : EI) : CN := shapeCast S50000x1 (Cert.ReferenceIdeal.Read.val_main_v45 (F := Ideal) x2) shapeCasts_S50000_S50000x1
/-- The aggregation of a layer: along the launched edges, scaled by their normalisation. -/
def aggK (x2 : EI) (h : MN) : MN := aggT (Cert.ReferenceIdeal.Read.val_main_v1 (F := Ideal) x2) (Cert.ReferenceIdeal.Read.val_main_v3 (F := Ideal) x2) (ncolK x2) h

theorem w1_v1 : W1 m ρ c (Proc.devRef .tc main_v1) = Cert.ReferenceIdeal.Read.val_main_v1 (F := Ideal) (edges m c) := v1_of (W0 m ρ c)
theorem w1_v3 : W1 m ρ c (Proc.devRef .tc main_v3) = Cert.ReferenceIdeal.Read.val_main_v3 (F := Ideal) (edges m c) := v3_of (W0 m ρ c)
theorem w1_v11 : W1 m ρ c (Proc.devRef .tc main_v11) = Cert.ReferenceIdeal.Read.val_main_v12 (F := Ideal) (edges m c) := v11_of (W0 m ρ c)
theorem w1_v14 : W1 m ρ c (Proc.devRef .tc main_v14) = Cert.ReferenceIdeal.Read.val_main_v15 (F := Ideal) (edges m c) := v14_of (W0 m ρ c)
theorem w1_cst4 : W1 m ρ c (Proc.devRef .tc main_cst_4) = Cert.ReferenceIdeal.Read.val_main_cst_4 (F := Ideal) := cst4_of (W0 m ρ c)
theorem w2_v1 : W2 m ρ c (Proc.devRef .tc main_v1) = Cert.ReferenceIdeal.Read.val_main_v1 (F := Ideal) (edges m c) :=
  (keep0_1 (W1 m ρ c) main_v1 (by decide)).trans (w1_v1 m ρ c)
theorem w2_v3 : W2 m ρ c (Proc.devRef .tc main_v3) = Cert.ReferenceIdeal.Read.val_main_v3 (F := Ideal) (edges m c) :=
  (keep0_1 (W1 m ρ c) main_v3 (by decide)).trans (w1_v3 m ρ c)
set_option maxHeartbeats 800000 in
/-- The inverse root degrees are the reference's. -/
theorem w2_v15 : W2 m ρ c (Proc.devRef .tc main_v15) = Cert.ReferenceIdeal.Read.val_main_v16 (F := Ideal) (edges m c) :=
  (v15_of (W1 m ρ c)).trans (by rw [w1_v11, w1_v14, w1_cst4]; rfl)
theorem w3_v1 : W3 m ρ c (Proc.devRef .tc main_v1) = Cert.ReferenceIdeal.Read.val_main_v1 (F := Ideal) (edges m c) :=
  (keep0_2 (W2 m ρ c) main_v1 (by decide)).trans (w2_v1 m ρ c)
theorem w3_v3 : W3 m ρ c (Proc.devRef .tc main_v3) = Cert.ReferenceIdeal.Read.val_main_v3 (F := Ideal) (edges m c) :=
  (keep0_2 (W2 m ρ c) main_v3 (by decide)).trans (w2_v3 m ρ c)
set_option maxHeartbeats 800000 in
theorem w3_v17 : W3 m ρ c (Proc.devRef .tc main_v17) = dcolK (edges m c) :=
  (v17_of (W2 m ρ c)).trans (by rw [w2_v15]; rfl)
set_option maxHeartbeats 800000 in
theorem w3_v33 : W3 m ρ c (Proc.devRef .tc main_v33) = ncolK (edges m c) :=
  (v33_of (W2 m ρ c)).trans (by rw [w2_v15, w2_v1, w2_v3]; rfl)

end Cert.KernelIdeal.Hand

end
-- ==== Proof.Spec.lean ====
/-
  The mathematics both programs compute, as whole-array functions over the extended reals.

  A two-layer graph convolution is applied to two node-feature arrays, the two results are multiplied entry by
  entry and projected to one column. One layer is: project the rows (`proj`: every row against the weight
  matrix), aggregate the projected rows along the graph's edges (`agg`, a scatter-add of gathered, scaled rows:
  carried here as ONE function parameter, never opened), add the self-loop term (the projected row times the
  node's squared inverse root degree, the column `d`) and the bias, and apply the activation (`combine`).
  Every function reads its result at an index from its operands at indices, so the same text serves a whole
  array of 50000 rows and one block of 2000 rows.
-/
import Idealize.ShloMosaic.PureOps.Ideal
import Idealize.ShloMosaic.Lib.ValueIdx

noncomputable section

namespace Cert.Gcn

open Idealize.ShloMosaic Idealize.ShloMosaic.ValueIdx

/-- An `a × b` array of extended reals. -/
abbrev Mat (a b : Nat) : Type := FVec Ideal (⟨2, ![a, b]⟩ : Shape) .f32
/-- A vector of `a` extended reals. -/
abbrev Vc (a : Nat) : Type := FVec Ideal (⟨1, ![a]⟩ : Shape) .f32

/-- Rows against a weight matrix: entry `(r, j)` is `∑ q, x (r, q) * w (q, j)`. -/
def proj {n k h : Nat} (x : Mat n k) (w : Mat k h) : Mat n h :=
  fun i => ∑ q : Fin k, x (ix2 (i 0) q) * w (ix2 q (i 1))

/-- The leaky rectifier with slope the binary32 number nearest 11/48: `v` where `v ≥ 0`, else `v` times the slope. -/
def rrelu (v : Ideal .f32) : Ideal .f32 :=
  Scalar.select (FloatOps.cmpf (F := Ideal) .oge v (Ideal.ofBits .f32 0x00000000#32)) v (v * Ideal.ofBits .f32 0x3E6AAAAB#32)

/-- The hyperbolic tangent on the extended reals. -/
def tanhAct (v : Ideal .f32) : Ideal .f32 := Ideal.tanh v

/-- Aggregate plus self-loop term plus bias, through the activation:
    entry `(r, j)` is `act ((a (r, j) + x (r, j) * d (r, 0)) + b j)`. -/
def combine {n h : Nat} (act : Ideal .f32 → Ideal .f32) (a x : Mat n h) (d : Mat n 1) (b : Vc h) : Mat n h :=
  fun i => act ((a i + x i * d (ix2 (i 0) (0 : Fin 1))) + b (ix1 (i 1)))

/-- The fused head: entry `(r, j)` is `(∑ q, (ze (r, q) * xf (r, q)) * w (q, j)) + b 0`. -/
def head {n k : Nat} (ze xf : Mat n k) (w : Mat k 1) (b : Vc 1) : Mat n 1 :=
  fun i => (∑ q : Fin k, (ze (ix2 (i 0) q) * xf (ix2 (i 0) q)) * w (ix2 q (i 1))) + b (ix1 (0 : Fin 1))

/-- One graph-convolution layer with activation `act`, the edge aggregation `agg` a parameter. -/
def layer {n k h : Nat} (act : Ideal .f32 → Ideal .f32) (agg : Mat n h → Mat n h) (d : Mat n 1)
    (x : Mat n k) (w : Mat k h) (b : Vc h) : Mat n h :=
  combine act (agg (proj x w)) (proj x w) d b

/-- The whole network: two layers (leaky rectifier, then tanh) on each of the two feature arrays, the product of
    the two results through the head. -/
def net {n : Nat} (agg : Mat n 64 → Mat n 64) (d : Mat n 1) (z x : Mat n 128)
    (We1 : Mat 128 64) (be1 : Vc 64) (We2 : Mat 64 64) (be2 : Vc 64)
    (Wf1 : Mat 128 64) (bf1 : Vc 64) (Wf2 : Mat 64 64) (bf2 : Vc 64) (Wo : Mat 64 1) (bo : Vc 1) : Mat n 1 :=
  head (layer tanhAct agg d (layer rrelu agg d z We1 be1) We2 be2)
       (layer tanhAct agg d (layer rrelu agg d x Wf1 bf1) Wf2 bf2) Wo bo

end Cert.Gcn

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.DotBlocks.lean ====
/-
  The matrix-unit kernels' arithmetic on one block of rows, read index by index over the extended reals.

  Narrowing an operand to a shorter float format changes nothing at the extended reals, and a matrix unit's product
  into a zero accumulator is the plain sum over the contraction index. So a projection kernel's block result is the
  specification's `proj` of its row block and the weight matrix, and the fused head's block result is the
  specification's `head` of its two row blocks, the weight column and the bias: the same functions that describe the
  whole arrays, at the block's extents.
-/
import proofs.«125793_j59425167508077_1_alg».proof.Proof.Spec
import proofs.«125793_j59425167508077_1_alg».proof.Proof.LibPlainDot
import Idealize.ShloMosaic.Lib.Pipeline.Value
import Idealize.ShloMosaic.Lib.ValueLayout

noncomputable section

open scoped BigOperators

namespace Cert.Gcn.Blocks

open Idealize.ShloMosaic Idealize.ShloMosaic.ValueIdx Cert.Gcn

/-- The zero offset of a rank-2 rectangle, as a constant function. -/
theorem zero2 : (![0, 0] : Fin 2 → Nat) = fun _ => 0 := funext fun a => by fin_cases a <;> rfl

/-- The zero offset of a rank-1 rectangle, as a constant function. -/
theorem zero1 : (![0] : Fin 1 → Nat) = fun _ => 0 := funext fun a => by fin_cases a; rfl

variable {M K N : Nat}

/-- Both operands narrowed, multiplied into a zero accumulator: entry (p, q) is the sum over k of x (p, k) · w (k, q). -/
theorem matmul_narrowed_eq_proj (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : FTy.bits .bf16 < FTy.bits .f32) (x : Mat M K) (w : Mat K N) :
    FloatOps.matmul d prec (truncf .bf16 x hb) (truncf .bf16 w hb) (constant (F := Ideal) ⟨2, ![M, N]⟩ .f32 0x00000000#32)
      = proj x w := by
  funext j
  obtain ⟨p, q, rfl⟩ : ∃ (p : Fin M) (q : Fin N), j = ix2 p q := ⟨j 0, j 1, eq_ix2 j⟩
  rw [Cert.PlainDot.matmul_zero_apply d h1 h2 h3 h4 h5 h6]
  rfl

/-- The same with the left operand first cast to its own shape. -/
theorem matmul_cast_narrowed_eq_proj (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : FTy.bits .bf16 < FTy.bits .f32)
    (hc : (⟨2, ![M, K]⟩ : Shape).ShapeCasts ⟨2, ![M, K]⟩) (x : Mat M K) (w : Mat K N) :
    FloatOps.matmul d prec (truncf .bf16 (shapeCast ⟨2, ![M, K]⟩ x hc : FVec Ideal ⟨2, ![M, K]⟩ .f32) hb) (truncf .bf16 w hb)
        (constant (F := Ideal) ⟨2, ![M, N]⟩ .f32 0x00000000#32)
      = proj x w := by
  rw [shapeCast_self]
  exact matmul_narrowed_eq_proj d h1 h2 h3 h4 h5 h6 prec hb x w

/-- A one-entry vector cast to one row and one column and repeated down a column is its one entry everywhere. -/
theorem bias_column (hs : (⟨1, ![1]⟩ : Shape).ShapeCasts ⟨2, ![1, 1]⟩)
    (hbr : (⟨2, ![1, 1]⟩ : Shape).Broadcasts ⟨2, ![M, 1]⟩) (b : Vc 1) (j : (⟨2, ![M, 1]⟩ : Shape).Idx) :
    broadcastTo ⟨2, ![M, 1]⟩ (shapeCast ⟨2, ![1, 1]⟩ b hs) hbr j = b (ix1 (0 : Fin 1)) := by
  rw [broadcastTo_apply _ hbr j (ix2 (0 : Fin 1) (0 : Fin 1)) (fun a => by match a with | ⟨0, _⟩ => rfl | ⟨1, _⟩ => rfl)]
  exact shapeCast_apply b hs _ (ix1 (0 : Fin 1)) (by rw [Shape.rowMajor_val_one, Shape.rowMajor_val_two]; rfl)

/-- The fused head on one block: the entrywise product of the two row blocks, narrowed, against the narrowed weight
    column into a zero accumulator, plus the bias repeated down the column. -/
theorem head_block (d : DotDims ⟨2, ![M, K]⟩ ⟨2, ![K, 1]⟩ ⟨2, ![M, 1]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : FTy.bits .bf16 < FTy.bits .f32)
    (hc : (⟨2, ![M, K]⟩ : Shape).ShapeCasts ⟨2, ![M, K]⟩) (hs : (⟨1, ![1]⟩ : Shape).ShapeCasts ⟨2, ![1, 1]⟩)
    (hbr : (⟨2, ![1, 1]⟩ : Shape).Broadcasts ⟨2, ![M, 1]⟩) (ze xf : Mat M K) (w : Mat K 1) (b : Vc 1) :
    addf (FloatOps.matmul d prec
            (truncf .bf16 (mulf (shapeCast ⟨2, ![M, K]⟩ ze hc : FVec Ideal ⟨2, ![M, K]⟩ .f32)
              (shapeCast ⟨2, ![M, K]⟩ xf hc : FVec Ideal ⟨2, ![M, K]⟩ .f32)) hb)
            (truncf .bf16 w hb) (constant (F := Ideal) ⟨2, ![M, 1]⟩ .f32 0x00000000#32))
         (broadcastTo ⟨2, ![M, 1]⟩ (shapeCast ⟨2, ![1, 1]⟩ b hs) hbr : FVec Ideal ⟨2, ![M, 1]⟩ .f32)
      = head ze xf w b := by
  funext j
  obtain ⟨p, q, rfl⟩ : ∃ (p : Fin M) (q : Fin 1), j = ix2 p q := ⟨j 0, j 1, eq_ix2 j⟩
  rw [addf_apply, bias_column hs hbr b, shapeCast_self, shapeCast_self,
    Cert.PlainDot.matmul_zero_apply d h1 h2 h3 h4 h5 h6]
  rfl

end Cert.Gcn.Blocks

end
-- ==== Proof.Region0.lean ====
/-
  The first layer's projection of the first feature array, from its blocks to its array.

  The kernel walks the 50000 rows of its input array in 25 blocks of 2000 rows. At block t it holds rows
  2000·t … 2000·t + 1999 of the input and the whole 128 × 64 weight matrix, and writes back the same rows of the
  result. Entry (r, j) of a block's result is the sum over q of input (r, q) times weight (q, j): it reads row r
  of the block and nothing else of the input, so row 2000·t + r of the result array depends only on row 2000·t + r
  of the input array. Every row lies in exactly the block of its quotient by 2000, so after the last block the
  result array is the projection of the whole input array.
-/
import proofs.«125793_j59425167508077_1_alg».proof.Proof.Gen.KernelIdeal.Frame
import proofs.«125793_j59425167508077_1_alg».proof.Proof.DotBlocks
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- One block's result is the projection of the block of rows by the weight matrix. -/
theorem pay0 (x0 : Vec Ideal S2000x128 .f32) (x1 : Vec Ideal S128x64 .f32) :
    k0_pay1 (F := Ideal) x0 x1 = Cert.Gcn.proj x0 x1 := by
  unfold k0_pay1
  exact Cert.Gcn.Blocks.matmul_narrowed_eq_proj dot_S2000x128_S128x64_S2000x64_1_0_0_1_n_n rfl rfl rfl rfl rfl rfl none
    bitsLt_bf16_f32 x0 x1

/-- The windows' index maps over the grid: the row and result windows sit at block row t, column block 0; the
    weight window is the whole matrix at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry z of the row block at point t is the input array's entry in row 2000·t + (row of z), same column. -/
theorem rows0 (c : Dev nD) (t : Fin cfg0.N) (z : S2000x128.Idx) (k : S50000x128.Idx)
    (hk0 : (k 0).val = 2000 * t.val + (z 0).val) (hk1 : (k 1).val = (z 1).val) :
    (iblk0 V c 0 t : Vec Ideal S2000x128 .f32) z = (V c main_arg0 : S50000x128.Idx → Elt Ideal .f32) k := by
  obtain ⟨e0, e1, -, -, -, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (z 0).val = (k 0).val; rw [e0, hk0]; omega
  | ⟨1, _⟩ => show win0_0.index t (1 : Fin 2) * 128 + 1 * (z 1).val = (k 1).val; rw [e1, hk1]; omega

/-- The weight block at every point is the weight matrix. -/
theorem weights0 (c : Dev nD) (t : Fin cfg0.N) (z : S128x64.Idx) :
    (iblk0 V c 1 t : Vec Ideal S128x64 .f32) z = (V c main_arg3 : S128x64.Idx → Elt Ideal .f32) z := by
  obtain ⟨-, -, e2, e3, -, -⟩ := idx0 t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * (z 0).val = (z 0).val; rw [e2]; omega
  | ⟨1, _⟩ => show win0_1.index t (1 : Fin 2) * 64 + 1 * (z 1).val = (z 1).val; rw [e3]; omega

/-- What point t writes back is block t of the projection of the whole input array. -/
theorem flushed0 (c : Dev nD) (t : Fin cfg0.N) :
    (dat0 (F := Ideal) V c).flushed 2 t
      = ((cfg0.win 2).blk t).view.read (Elt Ideal) (Cert.Gcn.proj (V c main_arg0 : Cert.Gcn.Mat 50000 128) (V c main_arg3 : Cert.Gcn.Mat 128 64)) := by
  show (cfg0.win 2).cut (grid0.coords t) ((dat0 (F := Ideal) V c).after 2 t) = _
  rw [after0_2]
  unfold out0_2
  rw [View.canon_unit_zero Cert.Gcn.Blocks.zero2]
  simp only [View.ld_unit_zero (S := S2000x128) Cert.Gcn.Blocks.zero2, View.ld_unit_zero (S := S128x64) Cert.Gcn.Blocks.zero2]
  rw [pay0]
  obtain ⟨-, -, -, -, e4, e5⟩ := idx0 t
  funext y
  show Cert.Gcn.proj (iblk0 V c 0 t : Vec Ideal S2000x128 .f32) (iblk0 V c 1 t : Vec Ideal S128x64 .f32) y
    = Cert.Gcn.proj (V c main_arg0 : Cert.Gcn.Mat 50000 128) (V c main_arg3 : Cert.Gcn.Mat 128 64) (((cfg0.win 2).blk t).view.emb y)
  unfold Cert.Gcn.proj
  refine Finset.sum_congr rfl fun q _ => ?_
  refine congrArg₂ (· * ·) ?_ ?_
  · refine rows0 V c t _ _ ?_ rfl
    show (((cfg0.win 2).blk t).view.emb y 0).val = 2000 * t.val + (y 0).val
    show win0_2.index t (0 : Fin 2) * 2000 + 1 * (y 0).val = _
    rw [e4]; omega
  · refine (weights0 V c t _).trans (congrArg (V c main_arg3) (funext fun a => Fin.ext ?_))
    match a with
    | ⟨0, _⟩ => rfl
    | ⟨1, _⟩ => show (y 1).val = win0_2.index t (1 : Fin 2) * 64 + 1 * (y 1).val; rw [e5]; omega

/-- An index of the result array is in point t's block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v34).slice (win0_2.rect t)).set ↔ _
  rw [View.set_slice_whole, Rect.mem_set_unit]
  exact Iff.rfl

/-- Every row of the result array is written by the point of its quotient by 2000. -/
theorem cover0 (i : S50000x64.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 64 := (i 1).isLt
  let t : Fin cfg0.N := ⟨(i 0).val / 2000, by rw [hN]; omega⟩
  have ht : t.val = (i 0).val / 2000 := rfl
  obtain ⟨-, -, -, -, e4, e5⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

/-- After the region the result array is the projection of the input array by the weight matrix. -/
theorem final0 (c : Dev nD) :
    (dat0 (F := Ideal) V c).arrAt 2 cfg0.N = Cert.Gcn.proj (V c main_arg0 : Cert.Gcn.Mat 50000 128) (V c main_arg3 : Cert.Gcn.Mat 128 64) :=
  (dat0 (F := Ideal) V c).arrAt_eq_of_cover 2 (Cert.Gcn.proj (V c main_arg0 : Cert.Gcn.Mat 50000 128) (V c main_arg3 : Cert.Gcn.Mat 128 64))
    (fun t _ => flushed0 V c t) cover0

end Cert.KernelIdeal.Reg

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.CombineLib.lean ====
/-
  The combine step of a graph-convolution layer, on one block of rows and on the whole array.

  Every combine kernel computes, entry by entry, `act ((a + x * d) + b)`: the aggregate `a`, the projected row `x`
  scaled by the row's entry of the column `d`, and the bias `b` of the entry's column, through the activation.
  Here: the part before the activation read at an index (`combinePre_apply`), the four kernels' stored values as the
  specification's `combine` of their loaded blocks, and the one step from blocks to the array: `combine` at an
  index of a block is `combine` of the arrays at the index the block's entry comes from, when each operand's block
  is read where the output's is (`combine_at`).
-/
import proofs.«125793_j59425167508077_1_alg».proof.Proof.Gen.KernelIdeal.Skeleton
import proofs.«125793_j59425167508077_1_alg».proof.Proof.Spec
import proofs.«125793_j59425167508077_1_alg».proof.Proof.LibColumns
import Idealize.ShloMosaic.Lib.ValueLayout
import Idealize.ShloMosaic.Lib.Pipeline.Value

noncomputable section

namespace Cert.KernelIdeal.Reg

open Cert.KernelIdeal Cert.KernelIdeal.Gen Idealize.ShloMosaic Idealize.ShloMosaic.ValueIdx

/-- The zero offset of a two-axis access. -/
theorem combine_off2 : (![0, 0] : Fin 2 → Nat) = fun _ => 0 := funext fun a => by fin_cases a <;> rfl
/-- The zero offset of a one-axis access. -/
theorem combine_off1 : (![0] : Fin 1 → Nat) = fun _ => 0 := funext fun a => by fin_cases a; rfl

/-- The value before the activation, as the kernels build it from their four loaded blocks: the casts to the same
    shape, the column spread along the rows, the bias spread down the rows. -/
def combinePre (x0 x1 : Vec Ideal S2000x64 .f32) (x2 : Vec Ideal S2000x1 .f32) (x3 : Vec Ideal S64 .f32) : FVec Ideal S2000x64 .f32 :=
  addf (addf (shapeCast S2000x64 x0 shapeCasts_S2000x64_S2000x64)
      (mulf (shapeCast S2000x64 x1 shapeCasts_S2000x64_S2000x64)
        (broadcastTo S2000x64 (shapeCast S2000x1 x2 shapeCasts_S2000x1_S2000x1) broadcasts_S2000x1_S2000x64)))
    (broadcastTo S2000x64 (shapeCast S1x64 x3 shapeCasts_S64_S1x64) broadcasts_S1x64_S2000x64)

/-- At `(p, q)` it is `(x0 (p, q) + x1 (p, q) * x2 (p, 0)) + x3 q`. -/
theorem combinePre_apply (x0 x1 : Vec Ideal S2000x64 .f32) (x2 : Vec Ideal S2000x1 .f32) (x3 : Vec Ideal S64 .f32)
    (p : Fin 2000) (q : Fin 64) :
    combinePre x0 x1 x2 x3 (ix2 p q) = (x0 (ix2 p q) + x1 (ix2 p q) * x2 (ix2 p (0 : Fin 1))) + x3 (ix1 q) := by
  unfold combinePre
  simp only [shapeCast_self]
  have e1 : broadcastTo S2000x64 x2 broadcasts_S2000x1_S2000x64 (ix2 p q) = x2 (ix2 p (0 : Fin 1)) :=
    Cert.LibColumns.broadcastTo_a1_ab_apply x2 broadcasts_S2000x1_S2000x64 p q
  have e2 : broadcastTo S2000x64 (shapeCast S1x64 x3 shapeCasts_S64_S1x64) broadcasts_S1x64_S2000x64 (ix2 p q) = x3 (ix1 q) :=
    (broadcastTo_1b_ab_apply (shapeCast S1x64 x3 shapeCasts_S64_S1x64) broadcasts_S1x64_S2000x64 p q).trans
      (shapeCast_a_1a_apply x3 shapeCasts_S64_S1x64 (0 : Fin 1) q)
  show (x0 (ix2 p q) + x1 (ix2 p q) * broadcastTo S2000x64 x2 broadcasts_S2000x1_S2000x64 (ix2 p q))
      + broadcastTo S2000x64 (shapeCast S1x64 x3 shapeCasts_S64_S1x64) broadcasts_S1x64_S2000x64 (ix2 p q) = _
  rw [e1, e2]

/-- `combine` of four blocks is the activation of `combinePre`. -/
theorem combine_eq_combinePre (act : Ideal .f32 → Ideal .f32) (x0 x1 : Vec Ideal S2000x64 .f32) (x2 : Vec Ideal S2000x1 .f32)
    (x3 : Vec Ideal S64 .f32) : (fun j => act (combinePre x0 x1 x2 x3 j)) = Cert.Gcn.combine act x0 x1 x2 x3 := by
  funext j
  obtain ⟨p, q, rfl⟩ : ∃ (p : Fin 2000) (q : Fin 64), j = ix2 p q := ⟨j 0, j 1, eq_ix2 j⟩
  show act (combinePre x0 x1 x2 x3 (ix2 p q)) = act ((x0 (ix2 p q) + x1 (ix2 p q) * x2 (ix2 p (0 : Fin 1))) + x3 (ix1 q))
  rw [combinePre_apply]

/-- The first layer's combine kernel stores the leaky rectifier of `combinePre`: the compare against zero, the product by
    the slope and the select are the rectifier entry by entry. -/
theorem k1_pay1_eq (x0 x1 : Vec Ideal S2000x64 .f32) (x2 : Vec Ideal S2000x1 .f32) (x3 : Vec Ideal S64 .f32) :
    k1_pay1 x0 x1 x2 x3 = Cert.Gcn.combine Cert.Gcn.rrelu x0 x1 x2 x3 :=
  (show k1_pay1 x0 x1 x2 x3 = fun j => Cert.Gcn.rrelu (combinePre x0 x1 x2 x3 j) from rfl).trans (combine_eq_combinePre _ x0 x1 x2 x3)

theorem k5_pay1_eq (x0 x1 : Vec Ideal S2000x64 .f32) (x2 : Vec Ideal S2000x1 .f32) (x3 : Vec Ideal S64 .f32) :
    k5_pay1 x0 x1 x2 x3 = Cert.Gcn.combine Cert.Gcn.rrelu x0 x1 x2 x3 :=
  (show k5_pay1 x0 x1 x2 x3 = fun j => Cert.Gcn.rrelu (combinePre x0 x1 x2 x3 j) from rfl).trans (combine_eq_combinePre _ x0 x1 x2 x3)

/-- The second layer's combine kernel stores the hyperbolic tangent of `combinePre`. -/
theorem k3_pay1_eq (x0 x1 : Vec Ideal S2000x64 .f32) (x2 : Vec Ideal S2000x1 .f32) (x3 : Vec Ideal S64 .f32) :
    k3_pay1 x0 x1 x2 x3 = Cert.Gcn.combine Cert.Gcn.tanhAct x0 x1 x2 x3 :=
  (show k3_pay1 x0 x1 x2 x3 = fun j => Cert.Gcn.tanhAct (combinePre x0 x1 x2 x3 j) from rfl).trans (combine_eq_combinePre _ x0 x1 x2 x3)

theorem k7_pay1_eq (x0 x1 : Vec Ideal S2000x64 .f32) (x2 : Vec Ideal S2000x1 .f32) (x3 : Vec Ideal S64 .f32) :
    k7_pay1 x0 x1 x2 x3 = Cert.Gcn.combine Cert.Gcn.tanhAct x0 x1 x2 x3 :=
  (show k7_pay1 x0 x1 x2 x3 = fun j => Cert.Gcn.tanhAct (combinePre x0 x1 x2 x3 j) from rfl).trans (combine_eq_combinePre _ x0 x1 x2 x3)

/-- From a block to the array: `combine` of four blocks at the entry `y` is `combine` of the four arrays at the
    index `i`, when each block's entry that `combine` reads is the array's entry that `combine` reads at `i`. -/
theorem combine_at (act : Ideal .f32 → Ideal .f32)
    (a x : Vec Ideal S2000x64 .f32) (d : Vec Ideal S2000x1 .f32) (b : Vec Ideal S64 .f32)
    (A X : Vec Ideal S50000x64 .f32) (D : Vec Ideal S50000x1 .f32) (B : Vec Ideal S64 .f32)
    (y : S2000x64.Idx) (i : S50000x64.Idx)
    (ha : a y = A i) (hx : x y = X i)
    (hd : d (ix2 (y 0 : Fin 2000) (0 : Fin 1)) = D (ix2 (i 0 : Fin 50000) (0 : Fin 1)))
    (hb : b (ix1 (y 1 : Fin 64)) = B (ix1 (i 1 : Fin 64))) :
    Cert.Gcn.combine act a x d b y = Cert.Gcn.combine act A X D B i := by
  show act ((a y + x y * d (ix2 (y 0 : Fin 2000) (0 : Fin 1))) + b (ix1 (y 1 : Fin 64)))
    = act ((A i + X i * D (ix2 (i 0 : Fin 50000) (0 : Fin 1))) + B (ix1 (i 1 : Fin 64)))
  rw [ha, hx, hd, hb]

end Cert.KernelIdeal.Reg

end
-- ==== Proof.Region1.lean ====
/-
  The combine kernel of the first layer (leaky rectifier) on the first feature array: its result array is the specification's `combine` of the arrays it reads.

  The kernel walks 25 blocks of 2000 rows. At a point `t` the body stores `combine` of the four blocks it loaded
  (rows `2000 t … 2000 t + 1999` of the aggregate, of the projected rows and of the degree column, and the whole
  bias); each of these blocks is read where the output's block is, so what the point writes back is block `t` of
  `combine` of the arrays, and the 25 blocks cover the 50000 rows.
-/
import proofs.«125793_j59425167508077_1_alg».proof.Proof.Gen.KernelIdeal.Frame
import proofs.«125793_j59425167508077_1_alg».proof.Proof.CombineLib
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The printed index maps over the grid: every row-tiled window is at block `(t, 0)`, the bias at block `0`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The aggregate's block at point `t` is read where the output's block is. -/
theorem agg1 (c : Dev nD) (t : Fin cfg1.N) (y : S2000x64.Idx) :
    (iblk1 V c 0 t : Vec Ideal S2000x64 .f32) y
      = (V c main_v46 : Vec Ideal S50000x64 .f32) (((cfg1.win 4).blk t).view.emb y) := by
  obtain ⟨e00, e01, -, -, -, -, -, e40, e41⟩ := idx1 t
  show V c main_v46 (((cfg1.win 0).blk t).view.emb y) = V c main_v46 (((cfg1.win 4).blk t).view.emb y)
  refine congrArg (V c main_v46) (funext fun a => Fin.ext ?_)
  match a with
  | ⟨0, _⟩ => show win1_0.index t (0 : Fin 2) * 2000 + 1 * (y 0).val = win1_4.index t (0 : Fin 2) * 2000 + 1 * (y 0).val; omega
  | ⟨1, _⟩ => show win1_0.index t (1 : Fin 2) * 64 + 1 * (y 1).val = win1_4.index t (1 : Fin 2) * 64 + 1 * (y 1).val; omega

/-- So is the projected rows' block. -/
theorem rows1 (c : Dev nD) (t : Fin cfg1.N) (y : S2000x64.Idx) :
    (iblk1 V c 1 t : Vec Ideal S2000x64 .f32) y
      = (V c main_v34 : Vec Ideal S50000x64 .f32) (((cfg1.win 4).blk t).view.emb y) := by
  obtain ⟨-, -, e10, e11, -, -, -, e40, e41⟩ := idx1 t
  show V c main_v34 (((cfg1.win 1).blk t).view.emb y) = V c main_v34 (((cfg1.win 4).blk t).view.emb y)
  refine congrArg (V c main_v34) (funext fun a => Fin.ext ?_)
  match a with
  | ⟨0, _⟩ => show win1_1.index t (0 : Fin 2) * 2000 + 1 * (y 0).val = win1_4.index t (0 : Fin 2) * 2000 + 1 * (y 0).val; omega
  | ⟨1, _⟩ => show win1_1.index t (1 : Fin 2) * 64 + 1 * (y 1).val = win1_4.index t (1 : Fin 2) * 64 + 1 * (y 1).val; omega

/-- The degree column's block holds, at the entry's row, the column's entry of the row the output's block puts it in. -/
theorem col1 (c : Dev nD) (t : Fin cfg1.N) (y : S2000x64.Idx) :
    (iblk1 V c 2 t : Vec Ideal S2000x1 .f32) (ix2 (y 0 : Fin 2000) (0 : Fin 1))
      = (V c main_v17 : Vec Ideal S50000x1 .f32) (ix2 ((((cfg1.win 4).blk t).view.emb y) 0 : Fin 50000) (0 : Fin 1)) := by
  obtain ⟨-, -, -, -, e20, e21, -, e40, e41⟩ := idx1 t
  show V c main_v17 (((cfg1.win 2).blk t).view.emb (ix2 (y 0 : Fin 2000) (0 : Fin 1)))
    = V c main_v17 (ix2 ((((cfg1.win 4).blk t).view.emb y) 0 : Fin 50000) (0 : Fin 1))
  refine congrArg (V c main_v17) (funext fun a => Fin.ext ?_)
  match a with
  | ⟨0, _⟩ => show win1_2.index t (0 : Fin 2) * 2000 + 1 * (y 0).val = win1_4.index t (0 : Fin 2) * 2000 + 1 * (y 0).val; omega
  | ⟨1, _⟩ => show win1_2.index t (1 : Fin 2) * 1 + 1 * 0 = 0; omega

/-- The bias's block is the whole bias: at the entry's column it is the bias of the output's column. -/
theorem bias1 (c : Dev nD) (t : Fin cfg1.N) (y : S2000x64.Idx) :
    (iblk1 V c 3 t : Vec Ideal S64 .f32) (ix1 (y 1 : Fin 64))
      = (V c main_arg4 : Vec Ideal S64 .f32) (ix1 ((((cfg1.win 4).blk t).view.emb y) 1 : Fin 64)) := by
  obtain ⟨-, -, -, -, -, -, e30, e40, e41⟩ := idx1 t
  show V c main_arg4 (((cfg1.win 3).blk t).view.emb (ix1 (y 1 : Fin 64)))
    = V c main_arg4 (ix1 ((((cfg1.win 4).blk t).view.emb y) 1 : Fin 64))
  refine congrArg (V c main_arg4) (funext fun a => Fin.ext ?_)
  match a with
  | ⟨0, _⟩ => show win1_3.index t (0 : Fin 1) * 64 + 1 * (y 1).val = win1_4.index t (1 : Fin 2) * 64 + 1 * (y 1).val; omega

/-- What point `t` writes back is block `t` of `combine` of the arrays as the region finds them. -/
theorem flushed1_eq (c : Dev nD) (t : Fin cfg1.N) :
    (dat1 (F := Ideal) V c).flushed 4 t = ((cfg1.win 4).blk t).view.read (Elt Ideal)
      (Cert.Gcn.combine Cert.Gcn.rrelu (V c main_v46) (V c main_v34) (V c main_v17) (V c main_arg4)) := by
  show (cfg1.win 4).cut (grid1.coords t) ((dat1 V c).after 4 t) = _
  rw [after1_4]
  unfold out1_4
  rw [View.canon_unit_zero combine_off2]
  simp only [View.ld_unit_zero (S := S2000x64) combine_off2, View.ld_unit_zero (S := S2000x1) combine_off2,
    View.ld_unit_zero (S := S64) combine_off1]
  rw [k1_pay1_eq]
  funext y
  exact combine_at Cert.Gcn.rrelu (iblk1 V c 0 t) (iblk1 V c 1 t) (iblk1 V c 2 t) (iblk1 V c 3 t)
    (V c main_v46) (V c main_v34) (V c main_v17) (V c main_arg4) y (((cfg1.win 4).blk t).view.emb y)
    (agg1 V c t y) (rows1 V c t y) (col1 V c t y) (bias1 V c t y)

/-- An index of the result array is in point `t`'s block iff each coordinate is in the block's range on its axis. -/
theorem mem_blk1 (t : Fin cfg1.N) (i : S50000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v47).slice (win1_4.rect t)).set ↔ _
  rw [View.set_slice_whole, Rect.mem_set_unit]
  exact Iff.rfl

/-- Every index of the result array is in the block of the point `row / 2000`, which is written back. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨-, -, -, -, -, -, -, e40, e41⟩ := idx1 ⟨(i 0).val / 2000, ht⟩
  have e40' : win1_4.index ⟨(i 0).val / 2000, ht⟩ (0 : Fin 2) = (i 0).val / 2000 := e40
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 64 ≤ (i 1).val
      ∧ (i 1).val < win1_4.index ⟨(i 0).val / 2000, ht⟩ (1 : Fin 2) * 64 + 64
    omega

/-- The result array after the region: `combine` of the arrays the region reads, as it finds them. -/
theorem final1 (c : Dev nD) : (dat1 (F := Ideal) V c).arrAt 4 cfg1.N
    = Cert.Gcn.combine Cert.Gcn.rrelu (V c main_v46) (V c main_v34) (V c main_v17) (V c main_arg4) :=
  (dat1 (F := Ideal) V c).arrAt_eq_of_cover 4 _ (fun t _ => flushed1_eq V c t) cover1

end Cert.KernelIdeal.Reg

end
-- ==== Proof.Region2.lean ====
/-
  The second layer's projection on the first branch, from its blocks to its array.

  The kernel walks the 50000 rows of its input array in 25 blocks of 2000 rows. At block t it holds rows
  2000·t … 2000·t + 1999 of the input and the whole 64 × 64 weight matrix, and writes back the same rows of the
  result. (The block is first cast to its own shape, which changes nothing.) Entry (r, j) of a block's result is the sum over q of input (r, q) times weight (q, j): it reads row r
  of the block and nothing else of the input, so row 2000·t + r of the result array depends only on row 2000·t + r
  of the input array. Every row lies in exactly the block of its quotient by 2000, so after the last block the
  result array is the projection of the whole input array.
-/
import proofs.«125793_j59425167508077_1_alg».proof.Proof.Gen.KernelIdeal.Frame
import proofs.«125793_j59425167508077_1_alg».proof.Proof.DotBlocks
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- One block's result is the projection of the block of rows by the weight matrix. -/
theorem pay2 (x0 : Vec Ideal S2000x64 .f32) (x1 : Vec Ideal S64x64 .f32) :
    k2_pay1 (F := Ideal) x0 x1 = Cert.Gcn.proj x0 x1 := by
  unfold k2_pay1
  exact Cert.Gcn.Blocks.matmul_cast_narrowed_eq_proj dot_S2000x64_S64x64_S2000x64_1_0_0_1_n_n rfl rfl rfl rfl rfl rfl none
    bitsLt_bf16_f32 shapeCasts_S2000x64_S2000x64 x0 x1

/-- The windows' index maps over the grid: the row and result windows sit at block row t, column block 0; the
    weight window is the whole matrix at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry z of the row block at point t is the input array's entry in row 2000·t + (row of z), same column. -/
theorem rows2 (c : Dev nD) (t : Fin cfg2.N) (z : S2000x64.Idx) (k : S50000x64.Idx)
    (hk0 : (k 0).val = 2000 * t.val + (z 0).val) (hk1 : (k 1).val = (z 1).val) :
    (iblk2 V c 0 t : Vec Ideal S2000x64 .f32) z = (V c main_v47 : S50000x64.Idx → Elt Ideal .f32) k := by
  obtain ⟨e0, e1, -, -, -, -⟩ := idx2 t
  unfold iblk2
  rw [View.read_apply]
  show V c main_v47 _ = V c main_v47 _
  refine congrArg (V c main_v47) (funext fun a => Fin.ext ?_)
  match a with
  | ⟨0, _⟩ => show win2_0.index t (0 : Fin 2) * 2000 + 1 * (z 0).val = (k 0).val; rw [e0, hk0]; omega
  | ⟨1, _⟩ => show win2_0.index t (1 : Fin 2) * 64 + 1 * (z 1).val = (k 1).val; rw [e1, hk1]; omega

/-- The weight block at every point is the weight matrix. -/
theorem weights2 (c : Dev nD) (t : Fin cfg2.N) (z : S64x64.Idx) :
    (iblk2 V c 1 t : Vec Ideal S64x64 .f32) z = (V c main_arg5 : S64x64.Idx → Elt Ideal .f32) z := by
  obtain ⟨-, -, e2, e3, -, -⟩ := idx2 t
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * (z 0).val = (z 0).val; rw [e2]; omega
  | ⟨1, _⟩ => show win2_1.index t (1 : Fin 2) * 64 + 1 * (z 1).val = (z 1).val; rw [e3]; omega

/-- What point t writes back is block t of the projection of the whole input array. -/
theorem flushed2 (c : Dev nD) (t : Fin cfg2.N) :
    (dat2 (F := Ideal) V c).flushed 2 t
      = ((cfg2.win 2).blk t).view.read (Elt Ideal) (Cert.Gcn.proj (V c main_v47 : Cert.Gcn.Mat 50000 64) (V c main_arg5 : Cert.Gcn.Mat 64 64)) := by
  show (cfg2.win 2).cut (grid2.coords t) ((dat2 (F := Ideal) V c).after 2 t) = _
  rw [after2_2]
  unfold out2_2
  rw [View.canon_unit_zero Cert.Gcn.Blocks.zero2]
  simp only [View.ld_unit_zero (S := S2000x64) Cert.Gcn.Blocks.zero2, View.ld_unit_zero (S := S64x64) Cert.Gcn.Blocks.zero2]
  rw [pay2]
  obtain ⟨-, -, -, -, e4, e5⟩ := idx2 t
  funext y
  show Cert.Gcn.proj (iblk2 V c 0 t : Vec Ideal S2000x64 .f32) (iblk2 V c 1 t : Vec Ideal S64x64 .f32) y
    = Cert.Gcn.proj (V c main_v47 : Cert.Gcn.Mat 50000 64) (V c main_arg5 : Cert.Gcn.Mat 64 64) (((cfg2.win 2).blk t).view.emb y)
  unfold Cert.Gcn.proj
  refine Finset.sum_congr rfl fun q _ => ?_
  refine congrArg₂ (· * ·) ?_ ?_
  · refine rows2 V c t _ _ ?_ rfl
    show (((cfg2.win 2).blk t).view.emb y 0).val = 2000 * t.val + (y 0).val
    show win2_2.index t (0 : Fin 2) * 2000 + 1 * (y 0).val = _
    rw [e4]; omega
  · refine (weights2 V c t _).trans (congrArg (V c main_arg5) (funext fun a => Fin.ext ?_))
    match a with
    | ⟨0, _⟩ => rfl
    | ⟨1, _⟩ => show (y 1).val = win2_2.index t (1 : Fin 2) * 64 + 1 * (y 1).val; rw [e5]; omega

/-- An index of the result array is in point t's block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Every row of the result array is written by the point of its quotient by 2000. -/
theorem cover2 (i : S50000x64.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 64 := (i 1).isLt
  let t : Fin cfg2.N := ⟨(i 0).val / 2000, by rw [hN]; omega⟩
  have ht : t.val = (i 0).val / 2000 := rfl
  obtain ⟨-, -, -, -, e4, e5⟩ := idx2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 64 ≤ (i 1).val ∧ (i 1).val < win2_2.index t (1 : Fin 2) * 64 + 64; rw [e5]; omega

/-- After the region the result array is the projection of the input array by the weight matrix. -/
theorem final2 (c : Dev nD) :
    (dat2 (F := Ideal) V c).arrAt 2 cfg2.N = Cert.Gcn.proj (V c main_v47 : Cert.Gcn.Mat 50000 64) (V c main_arg5 : Cert.Gcn.Mat 64 64) :=
  (dat2 (F := Ideal) V c).arrAt_eq_of_cover 2 (Cert.Gcn.proj (V c main_v47 : Cert.Gcn.Mat 50000 64) (V c main_arg5 : Cert.Gcn.Mat 64 64))
    (fun t _ => flushed2 V c t) cover2

end Cert.KernelIdeal.Reg

end
-- ==== Proof.Region3.lean ====
/-
  The combine kernel of the second layer (hyperbolic tangent) on the first feature array: its result array is the specification's `combine` of the arrays it reads.

  The kernel walks 25 blocks of 2000 rows. At a point `t` the body stores `combine` of the four blocks it loaded
  (rows `2000 t … 2000 t + 1999` of the aggregate, of the projected rows and of the degree column, and the whole
  bias); each of these blocks is read where the output's block is, so what the point writes back is block `t` of
  `combine` of the arrays, and the 25 blocks cover the 50000 rows.
-/
import proofs.«125793_j59425167508077_1_alg».proof.Proof.Gen.KernelIdeal.Frame
import proofs.«125793_j59425167508077_1_alg».proof.Proof.CombineLib
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The printed index maps over the grid: every row-tiled window is at block `(t, 0)`, the bias at block `0`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The aggregate's block at point `t` is read where the output's block is. -/
theorem agg3 (c : Dev nD) (t : Fin cfg3.N) (y : S2000x64.Idx) :
    (iblk3 V c 0 t : Vec Ideal S2000x64 .f32) y
      = (V c main_v60 : Vec Ideal S50000x64 .f32) (((cfg3.win 4).blk t).view.emb y) := by
  obtain ⟨e00, e01, -, -, -, -, -, e40, e41⟩ := idx3 t
  show V c main_v60 (((cfg3.win 0).blk t).view.emb y) = V c main_v60 (((cfg3.win 4).blk t).view.emb y)
  refine congrArg (V c main_v60) (funext fun a => Fin.ext ?_)
  match a with
  | ⟨0, _⟩ => show win3_0.index t (0 : Fin 2) * 2000 + 1 * (y 0).val = win3_4.index t (0 : Fin 2) * 2000 + 1 * (y 0).val; omega
  | ⟨1, _⟩ => show win3_0.index t (1 : Fin 2) * 64 + 1 * (y 1).val = win3_4.index t (1 : Fin 2) * 64 + 1 * (y 1).val; omega

/-- So is the projected rows' block. -/
theorem rows3 (c : Dev nD) (t : Fin cfg3.N) (y : S2000x64.Idx) :
    (iblk3 V c 1 t : Vec Ideal S2000x64 .f32) y
      = (V c main_v48 : Vec Ideal S50000x64 .f32) (((cfg3.win 4).blk t).view.emb y) := by
  obtain ⟨-, -, e10, e11, -, -, -, e40, e41⟩ := idx3 t
  show V c main_v48 (((cfg3.win 1).blk t).view.emb y) = V c main_v48 (((cfg3.win 4).blk t).view.emb y)
  refine congrArg (V c main_v48) (funext fun a => Fin.ext ?_)
  match a with
  | ⟨0, _⟩ => show win3_1.index t (0 : Fin 2) * 2000 + 1 * (y 0).val = win3_4.index t (0 : Fin 2) * 2000 + 1 * (y 0).val; omega
  | ⟨1, _⟩ => show win3_1.index t (1 : Fin 2) * 64 + 1 * (y 1).val = win3_4.index t (1 : Fin 2) * 64 + 1 * (y 1).val; omega

/-- The degree column's block holds, at the entry's row, the column's entry of the row the output's block puts it in. -/
theorem col3 (c : Dev nD) (t : Fin cfg3.N) (y : S2000x64.Idx) :
    (iblk3 V c 2 t : Vec Ideal S2000x1 .f32) (ix2 (y 0 : Fin 2000) (0 : Fin 1))
      = (V c main_v17 : Vec Ideal S50000x1 .f32) (ix2 ((((cfg3.win 4).blk t).view.emb y) 0 : Fin 50000) (0 : Fin 1)) := by
  obtain ⟨-, -, -, -, e20, e21, -, e40, e41⟩ := idx3 t
  show V c main_v17 (((cfg3.win 2).blk t).view.emb (ix2 (y 0 : Fin 2000) (0 : Fin 1)))
    = V c main_v17 (ix2 ((((cfg3.win 4).blk t).view.emb y) 0 : Fin 50000) (0 : Fin 1))
  refine congrArg (V c main_v17) (funext fun a => Fin.ext ?_)
  match a with
  | ⟨0, _⟩ => show win3_2.index t (0 : Fin 2) * 2000 + 1 * (y 0).val = win3_4.index t (0 : Fin 2) * 2000 + 1 * (y 0).val; omega
  | ⟨1, _⟩ => show win3_2.index t (1 : Fin 2) * 1 + 1 * 0 = 0; omega

/-- The bias's block is the whole bias: at the entry's column it is the bias of the output's column. -/
theorem bias3 (c : Dev nD) (t : Fin cfg3.N) (y : S2000x64.Idx) :
    (iblk3 V c 3 t : Vec Ideal S64 .f32) (ix1 (y 1 : Fin 64))
      = (V c main_arg6 : Vec Ideal S64 .f32) (ix1 ((((cfg3.win 4).blk t).view.emb y) 1 : Fin 64)) := by
  obtain ⟨-, -, -, -, -, -, e30, e40, e41⟩ := idx3 t
  show V c main_arg6 (((cfg3.win 3).blk t).view.emb (ix1 (y 1 : Fin 64)))
    = V c main_arg6 (ix1 ((((cfg3.win 4).blk t).view.emb y) 1 : Fin 64))
  refine congrArg (V c main_arg6) (funext fun a => Fin.ext ?_)
  match a with
  | ⟨0, _⟩ => show win3_3.index t (0 : Fin 1) * 64 + 1 * (y 1).val = win3_4.index t (1 : Fin 2) * 64 + 1 * (y 1).val; omega

/-- What point `t` writes back is block `t` of `combine` of the arrays as the region finds them. -/
theorem flushed3_eq (c : Dev nD) (t : Fin cfg3.N) :
    (dat3 (F := Ideal) V c).flushed 4 t = ((cfg3.win 4).blk t).view.read (Elt Ideal)
      (Cert.Gcn.combine Cert.Gcn.tanhAct (V c main_v60) (V c main_v48) (V c main_v17) (V c main_arg6)) := by
  show (cfg3.win 4).cut (grid3.coords t) ((dat3 V c).after 4 t) = _
  rw [after3_4]
  unfold out3_4
  rw [View.canon_unit_zero combine_off2]
  simp only [View.ld_unit_zero (S := S2000x64) combine_off2, View.ld_unit_zero (S := S2000x1) combine_off2,
    View.ld_unit_zero (S := S64) combine_off1]
  rw [k3_pay1_eq]
  funext y
  exact combine_at Cert.Gcn.tanhAct (iblk3 V c 0 t) (iblk3 V c 1 t) (iblk3 V c 2 t) (iblk3 V c 3 t)
    (V c main_v60) (V c main_v48) (V c main_v17) (V c main_arg6) y (((cfg3.win 4).blk t).view.emb y)
    (agg3 V c t y) (rows3 V c t y) (col3 V c t y) (bias3 V c t y)

/-- An index of the result array is in point `t`'s block iff each coordinate is in the block's range on its axis. -/
theorem mem_blk3 (t : Fin cfg3.N) (i : S50000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v61).slice (win3_4.rect t)).set ↔ _
  rw [View.set_slice_whole, Rect.mem_set_unit]
  exact Iff.rfl

/-- Every index of the result array is in the block of the point `row / 2000`, which is written back. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  have ht : (i 0).val / 2000 < cfg3.N := by rw [hN]; omega
  obtain ⟨-, -, -, -, -, -, -, e40, e41⟩ := idx3 ⟨(i 0).val / 2000, ht⟩
  have e40' : win3_4.index ⟨(i 0).val / 2000, ht⟩ (0 : Fin 2) = (i 0).val / 2000 := e40
  refine ⟨⟨(i 0).val / 2000, ht⟩, flush3_4 _, ?_⟩
  rw [mem_blk3]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    omega
  | ⟨1, _⟩ =>
    show win3_4.index ⟨(i 0).val / 2000, ht⟩ (1 : Fin 2) * 64 ≤ (i 1).val
      ∧ (i 1).val < win3_4.index ⟨(i 0).val / 2000, ht⟩ (1 : Fin 2) * 64 + 64
    omega

/-- The result array after the region: `combine` of the arrays the region reads, as it finds them. -/
theorem final3 (c : Dev nD) : (dat3 (F := Ideal) V c).arrAt 4 cfg3.N
    = Cert.Gcn.combine Cert.Gcn.tanhAct (V c main_v60) (V c main_v48) (V c main_v17) (V c main_arg6) :=
  (dat3 (F := Ideal) V c).arrAt_eq_of_cover 4 _ (fun t _ => flushed3_eq V c t) cover3

end Cert.KernelIdeal.Reg

end
-- ==== Proof.Region4.lean ====
/-
  The first layer's projection of the second feature array, from its blocks to its array.

  The kernel walks the 50000 rows of its input array in 25 blocks of 2000 rows. At block t it holds rows
  2000·t … 2000·t + 1999 of the input and the whole 128 × 64 weight matrix, and writes back the same rows of the
  result. Entry (r, j) of a block's result is the sum over q of input (r, q) times weight (q, j): it reads row r
  of the block and nothing else of the input, so row 2000·t + r of the result array depends only on row 2000·t + r
  of the input array. Every row lies in exactly the block of its quotient by 2000, so after the last block the
  result array is the projection of the whole input array.
-/
import proofs.«125793_j59425167508077_1_alg».proof.Proof.Gen.KernelIdeal.Frame
import proofs.«125793_j59425167508077_1_alg».proof.Proof.DotBlocks
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- One block's result is the projection of the block of rows by the weight matrix. -/
theorem pay4 (x0 : Vec Ideal S2000x128 .f32) (x1 : Vec Ideal S128x64 .f32) :
    k4_pay1 (F := Ideal) x0 x1 = Cert.Gcn.proj x0 x1 := by
  unfold k4_pay1
  exact Cert.Gcn.Blocks.matmul_narrowed_eq_proj dot_S2000x128_S128x64_S2000x64_1_0_0_1_n_n rfl rfl rfl rfl rfl rfl none
    bitsLt_bf16_f32 x0 x1

/-- The windows' index maps over the grid: the row and result windows sit at block row t, column block 0; the
    weight window is the whole matrix at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry z of the row block at point t is the input array's entry in row 2000·t + (row of z), same column. -/
theorem rows4 (c : Dev nD) (t : Fin cfg4.N) (z : S2000x128.Idx) (k : S50000x128.Idx)
    (hk0 : (k 0).val = 2000 * t.val + (z 0).val) (hk1 : (k 1).val = (z 1).val) :
    (iblk4 V c 0 t : Vec Ideal S2000x128 .f32) z = (V c main_arg1 : S50000x128.Idx → Elt Ideal .f32) k := by
  obtain ⟨e0, e1, -, -, -, -⟩ := idx4 t
  unfold iblk4
  rw [View.read_apply]
  show V c main_arg1 _ = V c main_arg1 _
  refine congrArg (V c main_arg1) (funext fun a => Fin.ext ?_)
  match a with
  | ⟨0, _⟩ => show win4_0.index t (0 : Fin 2) * 2000 + 1 * (z 0).val = (k 0).val; rw [e0, hk0]; omega
  | ⟨1, _⟩ => show win4_0.index t (1 : Fin 2) * 128 + 1 * (z 1).val = (k 1).val; rw [e1, hk1]; omega

/-- The weight block at every point is the weight matrix. -/
theorem weights4 (c : Dev nD) (t : Fin cfg4.N) (z : S128x64.Idx) :
    (iblk4 V c 1 t : Vec Ideal S128x64 .f32) z = (V c main_arg7 : S128x64.Idx → Elt Ideal .f32) z := by
  obtain ⟨-, -, e2, e3, -, -⟩ := idx4 t
  unfold iblk4
  rw [View.read_apply]
  show V c main_arg7 _ = V c main_arg7 _
  refine congrArg (V c main_arg7) (funext fun a => Fin.ext ?_)
  match a with
  | ⟨0, _⟩ => show win4_1.index t (0 : Fin 2) * 128 + 1 * (z 0).val = (z 0).val; rw [e2]; omega
  | ⟨1, _⟩ => show win4_1.index t (1 : Fin 2) * 64 + 1 * (z 1).val = (z 1).val; rw [e3]; omega

/-- What point t writes back is block t of the projection of the whole input array. -/
theorem flushed4 (c : Dev nD) (t : Fin cfg4.N) :
    (dat4 (F := Ideal) V c).flushed 2 t
      = ((cfg4.win 2).blk t).view.read (Elt Ideal) (Cert.Gcn.proj (V c main_arg1 : Cert.Gcn.Mat 50000 128) (V c main_arg7 : Cert.Gcn.Mat 128 64)) := by
  show (cfg4.win 2).cut (grid4.coords t) ((dat4 (F := Ideal) V c).after 2 t) = _
  rw [after4_2]
  unfold out4_2
  rw [View.canon_unit_zero Cert.Gcn.Blocks.zero2]
  simp only [View.ld_unit_zero (S := S2000x128) Cert.Gcn.Blocks.zero2, View.ld_unit_zero (S := S128x64) Cert.Gcn.Blocks.zero2]
  rw [pay4]
  obtain ⟨-, -, -, -, e4, e5⟩ := idx4 t
  funext y
  show Cert.Gcn.proj (iblk4 V c 0 t : Vec Ideal S2000x128 .f32) (iblk4 V c 1 t : Vec Ideal S128x64 .f32) y
    = Cert.Gcn.proj (V c main_arg1 : Cert.Gcn.Mat 50000 128) (V c main_arg7 : Cert.Gcn.Mat 128 64) (((cfg4.win 2).blk t).view.emb y)
  unfold Cert.Gcn.proj
  refine Finset.sum_congr rfl fun q _ => ?_
  refine congrArg₂ (· * ·) ?_ ?_
  · refine rows4 V c t _ _ ?_ rfl
    show (((cfg4.win 2).blk t).view.emb y 0).val = 2000 * t.val + (y 0).val
    show win4_2.index t (0 : Fin 2) * 2000 + 1 * (y 0).val = _
    rw [e4]; omega
  · refine (weights4 V c t _).trans (congrArg (V c main_arg7) (funext fun a => Fin.ext ?_))
    match a with
    | ⟨0, _⟩ => rfl
    | ⟨1, _⟩ => show (y 1).val = win4_2.index t (1 : Fin 2) * 64 + 1 * (y 1).val; rw [e5]; omega

/-- An index of the result array is in point t's block iff each coordinate is in the block's range on its axis. -/
theorem mem_blk4 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v62).slice (win4_2.rect t)).set ↔ _
  rw [View.set_slice_whole, Rect.mem_set_unit]
  exact Iff.rfl

/-- Every row of the result array is written by the point of its quotient by 2000. -/
theorem cover4 (i : S50000x64.Idx) :
    ∃ t : Fin cfg4.N, (cfg4.win 2).flush t = true ∧ i ∈ ((cfg4.win 2).blk t).view.set := by
  have hN : cfg4.N = 25 := N_4
  have hi0 : (i 0).val < 50000 := (i 0).isLt
  have hi1 : (i 1).val < 64 := (i 1).isLt
  let t : Fin cfg4.N := ⟨(i 0).val / 2000, by rw [hN]; omega⟩
  have ht : t.val = (i 0).val / 2000 := rfl
  obtain ⟨-, -, -, -, e4, e5⟩ := idx4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; rw [e4, ht]; omega
  | ⟨1, _⟩ => show win4_2.index t (1 : Fin 2) * 64 ≤ (i 1).val ∧ (i 1).val < win4_2.index t (1 : Fin 2) * 64 + 64; rw [e5]; omega

/-- After the region the result array is the projection of the input array by the weight matrix. -/
theorem final4 (c : Dev nD) :
    (dat4 (F := Ideal) V c).arrAt 2 cfg4.N = Cert.Gcn.proj (V c main_arg1 : Cert.Gcn.Mat 50000 128) (V c main_arg7 : Cert.Gcn.Mat 128 64) :=
  (dat4 (F := Ideal) V c).arrAt_eq_of_cover 2 (Cert.Gcn.proj (V c main_arg1 : Cert.Gcn.Mat 50000 128) (V c main_arg7 : Cert.Gcn.Mat 128 64))
    (fun t _ => flushed4 V c t) cover4

end Cert.KernelIdeal.Reg

end
-- ==== Proof.Region5.lean ====
/-
  The combine kernel of the first layer (leaky rectifier) on the second feature array: its result array is the specification's `combine` of the arrays it reads.

  The kernel walks 25 blocks of 2000 rows. At a point `t` the body stores `combine` of the four blocks it loaded
  (rows `2000 t … 2000 t + 1999` of the aggregate, of the projected rows and of the degree column, and the whole
  bias); each of these blocks is read where the output's block is, so what the point writes back is block `t` of
  `combine` of the arrays, and the 25 blocks cover the 50000 rows.
-/
import proofs.«125793_j59425167508077_1_alg».proof.Proof.Gen.KernelIdeal.Frame
import proofs.«125793_j59425167508077_1_alg».proof.Proof.CombineLib
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The printed index maps over the grid: every row-tiled window is at block `(t, 0)`, the bias at block `0`. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- The aggregate's block at point `t` is read where the output's block is. -/
theorem agg5 (c : Dev nD) (t : Fin cfg5.N) (y : S2000x64.Idx) :
    (iblk5 V c 0 t : Vec Ideal S2000x64 .f32) y
      = (V c main_v74 : Vec Ideal S50000x64 .f32) (((cfg5.win 4).blk t).view.emb y) := by
  obtain ⟨e00, e01, -, -, -, -, -, e40, e41⟩ := idx5 t
  show V c main_v74 (((cfg5.win 0).blk t).view.emb y) = V c main_v74 (((cfg5.win 4).blk t).view.emb y)
  refine congrArg (V c main_v74) (funext fun a => Fin.ext ?_)
  match a with
  | ⟨0, _⟩ => show win5_0.index t (0 : Fin 2) * 2000 + 1 * (y 0).val = win5_4.index t (0 : Fin 2) * 2000 + 1 * (y 0).val; omega
  | ⟨1, _⟩ => show win5_0.index t (1 : Fin 2) * 64 + 1 * (y 1).val = win5_4.index t (1 : Fin 2) * 64 + 1 * (y 1).val; omega

/-- So is the projected rows' block. -/
theorem rows5 (c : Dev nD) (t : Fin cfg5.N) (y : S2000x64.Idx) :
    (iblk5 V c 1 t : Vec Ideal S2000x64 .f32) y
      = (V c main_v62 : Vec Ideal S50000x64 .f32) (((cfg5.win 4).blk t).view.emb y) := by
  obtain ⟨-, -, e10, e11, -, -, -, e40, e41⟩ := idx5 t
  show V c main_v62 (((cfg5.win 1).blk t).view.emb y) = V c main_v62 (((cfg5.win 4).blk t).view.emb y)
  refine congrArg (V c main_v62) (funext fun a => Fin.ext ?_)
  match a with
  | ⟨0, _⟩ => show win5_1.index t (0 : Fin 2) * 2000 + 1 * (y 0).val = win5_4.index t (0 : Fin 2) * 2000 + 1 * (y 0).val; omega
  | ⟨1, _⟩ => show win5_1.index t (1 : Fin 2) * 64 + 1 * (y 1).val = win5_4.index t (1 : Fin 2) * 64 + 1 * (y 1).val; omega

/-- The degree column's block holds, at the entry's row, the column's entry of the row the output's block puts it in. -/
theorem col5 (c : Dev nD) (t : Fin cfg5.N) (y : S2000x64.Idx) :
    (iblk5 V c 2 t : Vec Ideal S2000x1 .f32) (ix2 (y 0 : Fin 2000) (0 : Fin 1))
      = (V c main_v17 : Vec Ideal S50000x1 .f32) (ix2 ((((cfg5.win 4).blk t).view.emb y) 0 : Fin 50000) (0 : Fin 1)) := by
  obtain ⟨-, -, -, -, e20, e21, -, e40, e41⟩ := idx5 t
  show V c main_v17 (((cfg5.win 2).blk t).view.emb (ix2 (y 0 : Fin 2000) (0 : Fin 1)))
    = V c main_v17 (ix2 ((((cfg5.win 4).blk t).view.emb y) 0 : Fin 50000) (0 : Fin 1))
  refine congrArg (V c main_v17) (funext fun a => Fin.ext ?_)
  match a with
  | ⟨0, _⟩ => show win5_2.index t (0 : Fin 2) * 2000 + 1 * (y 0).val = win5_4.index t (0 : Fin 2) * 2000 + 1 * (y 0).val; omega
  | ⟨1, _⟩ => show win5_2.index t (1 : Fin 2) * 1 + 1 * 0 = 0; omega

/-- The bias's block is the whole bias: at the entry's column it is the bias of the output's column. -/
theorem bias5 (c : Dev nD) (t : Fin cfg5.N) (y : S2000x64.Idx) :
    (iblk5 V c 3 t : Vec Ideal S64 .f32) (ix1 (y 1 : Fin 64))
      = (V c main_arg8 : Vec Ideal S64 .f32) (ix1 ((((cfg5.win 4).blk t).view.emb y) 1 : Fin 64)) := by
  obtain ⟨-, -, -, -, -, -, e30, e40, e41⟩ := idx5 t
  show V c main_arg8 (((cfg5.win 3).blk t).view.emb (ix1 (y 1 : Fin 64)))
    = V c main_arg8 (ix1 ((((cfg5.win 4).blk t).view.emb y) 1 : Fin 64))
  refine congrArg (V c main_arg8) (funext fun a => Fin.ext ?_)
  match a with
  | ⟨0, _⟩ => show win5_3.index t (0 : Fin 1) * 64 + 1 * (y 1).val = win5_4.index t (1 : Fin 2) * 64 + 1 * (y 1).val; omega

/-- What point `t` writes back is block `t` of `combine` of the arrays as the region finds them. -/
theorem flushed5_eq (c : Dev nD) (t : Fin cfg5.N) :
    (dat5 (F := Ideal) V c).flushed 4 t = ((cfg5.win 4).blk t).view.read (Elt Ideal)
      (Cert.Gcn.combine Cert.Gcn.rrelu (V c main_v74) (V c main_v62) (V c main_v17) (V c main_arg8)) := by
  show (cfg5.win 4).cut (grid5.coords t) ((dat5 V c).after 4 t) = _
  rw [after5_4]
  unfold out5_4
  rw [View.canon_unit_zero combine_off2]
  simp only [View.ld_unit_zero (S := S2000x64) combine_off2, View.ld_unit_zero (S := S2000x1) combine_off2,
    View.ld_unit_zero (S := S64) combine_off1]
  rw [k5_pay1_eq]
  funext y
  exact combine_at Cert.Gcn.rrelu (iblk5 V c 0 t) (iblk5 V c 1 t) (iblk5 V c 2 t) (iblk5 V c 3 t)
    (V c main_v74) (V c main_v62) (V c main_v17) (V c main_arg8) y (((cfg5.win 4).blk t).view.emb y)
    (agg5 V c t y) (rows5 V c t y) (col5 V c t y) (bias5 V c t y)

/-- An index of the result array is in point `t`'s block iff each coordinate is in the block's range on its axis. -/
theorem mem_blk5 (t : Fin cfg5.N) (i : S50000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v75).slice (win5_4.rect t)).set ↔ _
  rw [View.set_slice_whole, Rect.mem_set_unit]
  exact Iff.rfl

/-- Every index of the result array is in the block of the point `row / 2000`, which is written back. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  have ht : (i 0).val / 2000 < cfg5.N := by rw [hN]; omega
  obtain ⟨-, -, -, -, -, -, -, e40, e41⟩ := idx5 ⟨(i 0).val / 2000, ht⟩
  have e40' : win5_4.index ⟨(i 0).val / 2000, ht⟩ (0 : Fin 2) = (i 0).val / 2000 := e40
  refine ⟨⟨(i 0).val / 2000, ht⟩, flush5_4 _, ?_⟩
  rw [mem_blk5]
  intro a
  match a with
  | ⟨0, _⟩ =>
    show win5_4.index ⟨(i 0).val / 2000, ht⟩ (0 : Fin 2) * 2000 ≤ (i 0).val
      ∧ (i 0).val < win5_4.index ⟨(i 0).val / 2000, ht⟩ (0 : Fin 2) * 2000 + 2000
    omega
  | ⟨1, _⟩ =>
    show win5_4.index ⟨(i 0).val / 2000, ht⟩ (1 : Fin 2) * 64 ≤ (i 1).val
      ∧ (i 1).val < win5_4.index ⟨(i 0).val / 2000, ht⟩ (1 : Fin 2) * 64 + 64
    omega

/-- The result array after the region: `combine` of the arrays the region reads, as it finds them. -/
theorem final5 (c : Dev nD) : (dat5 (F := Ideal) V c).arrAt 4 cfg5.N
    = Cert.Gcn.combine Cert.Gcn.rrelu (V c main_v74) (V c main_v62) (V c main_v17) (V c main_arg8) :=
  (dat5 (F := Ideal) V c).arrAt_eq_of_cover 4 _ (fun t _ => flushed5_eq V c t) cover5

end Cert.KernelIdeal.Reg

end
-- ==== Proof.Region6.lean ====
/-
  The second layer's projection on the second branch, from its blocks to its array.

  The kernel walks the 50000 rows of its input array in 25 blocks of 2000 rows. At block t it holds rows
  2000·t … 2000·t + 1999 of the input and the whole 64 × 64 weight matrix, and writes back the same rows of the
  result. (The block is first cast to its own shape, which changes nothing.) Entry (r, j) of a block's result is the sum over q of input (r, q) times weight (q, j): it reads row r
  of the block and nothing else of the input, so row 2000·t + r of the result array depends only on row 2000·t + r
  of the input array. Every row lies in exactly the block of its quotient by 2000, so after the last block the
  result array is the projection of the whole input array.
-/
import proofs.«125793_j59425167508077_1_alg».proof.Proof.Gen.KernelIdeal.Frame
import proofs.«125793_j59425167508077_1_alg».proof.Proof.DotBlocks
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- One block's result is the projection of the block of rows by the weight matrix. -/
theorem pay6 (x0 : Vec Ideal S2000x64 .f32) (x1 : Vec Ideal S64x64 .f32) :
    k6_pay1 (F := Ideal) x0 x1 = Cert.Gcn.proj x0 x1 := by
  unfold k6_pay1
  exact Cert.Gcn.Blocks.matmul_cast_narrowed_eq_proj dot_S2000x64_S64x64_S2000x64_1_0_0_1_n_n rfl rfl rfl rfl rfl rfl none
    bitsLt_bf16_f32 shapeCasts_S2000x64_S2000x64 x0 x1

/-- The windows' index maps over the grid: the row and result windows sit at block row t, column block 0; the
    weight window is the whole matrix at every point. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry z of the row block at point t is the input array's entry in row 2000·t + (row of z), same column. -/
theorem rows6 (c : Dev nD) (t : Fin cfg6.N) (z : S2000x64.Idx) (k : S50000x64.Idx)
    (hk0 : (k 0).val = 2000 * t.val + (z 0).val) (hk1 : (k 1).val = (z 1).val) :
    (iblk6 V c 0 t : Vec Ideal S2000x64 .f32) z = (V c main_v75 : S50000x64.Idx → Elt Ideal .f32) k := by
  obtain ⟨e0, e1, -, -, -, -⟩ := idx6 t
  unfold iblk6
  rw [View.read_apply]
  show V c main_v75 _ = V c main_v75 _
  refine congrArg (V c main_v75) (funext fun a => Fin.ext ?_)
  match a with
  | ⟨0, _⟩ => show win6_0.index t (0 : Fin 2) * 2000 + 1 * (z 0).val = (k 0).val; rw [e0, hk0]; omega
  | ⟨1, _⟩ => show win6_0.index t (1 : Fin 2) * 64 + 1 * (z 1).val = (k 1).val; rw [e1, hk1]; omega

/-- The weight block at every point is the weight matrix. -/
theorem weights6 (c : Dev nD) (t : Fin cfg6.N) (z : S64x64.Idx) :
    (iblk6 V c 1 t : Vec Ideal S64x64 .f32) z = (V c main_arg9 : S64x64.Idx → Elt Ideal .f32) z := by
  obtain ⟨-, -, e2, e3, -, -⟩ := idx6 t
  unfold iblk6
  rw [View.read_apply]
  show V c main_arg9 _ = V c main_arg9 _
  refine congrArg (V c main_arg9) (funext fun a => Fin.ext ?_)
  match a with
  | ⟨0, _⟩ => show win6_1.index t (0 : Fin 2) * 64 + 1 * (z 0).val = (z 0).val; rw [e2]; omega
  | ⟨1, _⟩ => show win6_1.index t (1 : Fin 2) * 64 + 1 * (z 1).val = (z 1).val; rw [e3]; omega

/-- What point t writes back is block t of the projection of the whole input array. -/
theorem flushed6 (c : Dev nD) (t : Fin cfg6.N) :
    (dat6 (F := Ideal) V c).flushed 2 t
      = ((cfg6.win 2).blk t).view.read (Elt Ideal) (Cert.Gcn.proj (V c main_v75 : Cert.Gcn.Mat 50000 64) (V c main_arg9 : Cert.Gcn.Mat 64 64)) := by
  show (cfg6.win 2).cut (grid6.coords t) ((dat6 (F := Ideal) V c).after 2 t) = _
  rw [after6_2]
  unfold out6_2
  rw [View.canon_unit_zero Cert.Gcn.Blocks.zero2]
  simp only [View.ld_unit_zero (S := S2000x64) Cert.Gcn.Blocks.zero2, View.ld_unit_zero (S := S64x64) Cert.Gcn.Blocks.zero2]
  rw [pay6]
  obtain ⟨-, -, -, -, e4, e5⟩ := idx6 t
  funext y
  show Cert.Gcn.proj (iblk6 V c 0 t : Vec Ideal S2000x64 .f32) (iblk6 V c 1 t : Vec Ideal S64x64 .f32) y
    = Cert.Gcn.proj (V c main_v75 : Cert.Gcn.Mat 50000 64) (V c main_arg9 : Cert.Gcn.Mat 64 64) (((cfg6.win 2).blk t).view.emb y)
  unfold Cert.Gcn.proj
  refine Finset.sum_congr rfl fun q _ => ?_
  refine congrArg₂ (· * ·) ?_ ?_
  · refine rows6 V c t _ _ ?_ rfl
    show (((cfg6.win 2).blk t).view.emb y 0).val = 2000 * t.val + (y 0).val
    show win6_2.index t (0 : Fin 2) * 2000 + 1 * (y 0).val = _
    rw [e4]; omega
  · refine (weights6 V c t _).trans (congrArg (V c main_arg9) (funext fun a => Fin.ext ?_))
    match a with
    | ⟨0, _⟩ => rfl
    | ⟨1, _⟩ => show (y 1).val = win6_2.index t (1 : Fin 2) * 64 + 1 * (y 1).val; rw [e5]; omega

/-- An index of the result array is in point t's block iff each coordinate is in the block's range on its axis. -/
theorem mem_blk6 (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v76).slice (win6_2.rect t)).set ↔ _
  rw [View.set_slice_whole, Rect.mem_set_unit]
  exact Iff.rfl

/-- Every row of the result array is written by the point of its quotient by 2000. -/
theorem cover6 (i : S50000x64.Idx) :
    ∃ t : Fin cfg6.N, (cfg6.win 2).flush t = true ∧ i ∈ ((cfg6.win 2).blk t).view.set := by
  have hN : cfg6.N = 25 := N_6
  have hi0 : (i 0).val < 50000 := (i 0).isLt
  have hi1 : (i 1).val < 64 := (i 1).isLt
  let t : Fin cfg6.N := ⟨(i 0).val / 2000, by rw [hN]; omega⟩
  have ht : t.val = (i 0).val / 2000 := rfl
  obtain ⟨-, -, -, -, e4, e5⟩ := idx6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; rw [e4, ht]; omega
  | ⟨1, _⟩ => show win6_2.index t (1 : Fin 2) * 64 ≤ (i 1).val ∧ (i 1).val < win6_2.index t (1 : Fin 2) * 64 + 64; rw [e5]; omega

/-- After the region the result array is the projection of the input array by the weight matrix. -/
theorem final6 (c : Dev nD) :
    (dat6 (F := Ideal) V c).arrAt 2 cfg6.N = Cert.Gcn.proj (V c main_v75 : Cert.Gcn.Mat 50000 64) (V c main_arg9 : Cert.Gcn.Mat 64 64) :=
  (dat6 (F := Ideal) V c).arrAt_eq_of_cover 2 (Cert.Gcn.proj (V c main_v75 : Cert.Gcn.Mat 50000 64) (V c main_arg9 : Cert.Gcn.Mat 64 64))
    (fun t _ => flushed6 V c t) cover6

end Cert.KernelIdeal.Reg

end
-- ==== Proof.Region7.lean ====
/-
  The combine kernel of the second layer (hyperbolic tangent) on the second feature array: its result array is the specification's `combine` of the arrays it reads.

  The kernel walks 25 blocks of 2000 rows. At a point `t` the body stores `combine` of the four blocks it loaded
  (rows `2000 t … 2000 t + 1999` of the aggregate, of the projected rows and of the degree column, and the whole
  bias); each of these blocks is read where the output's block is, so what the point writes back is block `t` of
  `combine` of the arrays, and the 25 blocks cover the 50000 rows.
-/
import proofs.«125793_j59425167508077_1_alg».proof.Proof.Gen.KernelIdeal.Frame
import proofs.«125793_j59425167508077_1_alg».proof.Proof.CombineLib
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The printed index maps over the grid: every row-tiled window is at block `(t, 0)`, the bias at block `0`. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 1) = 0
    ∧ win7_4.index t (0 : Fin 2) = t.val ∧ win7_4.index t (1 : Fin 2) = 0 :=
  (by decide +kernel : ∀ t : Fin grid7.N, _)

/-- The aggregate's block at point `t` is read where the output's block is. -/
theorem agg7 (c : Dev nD) (t : Fin cfg7.N) (y : S2000x64.Idx) :
    (iblk7 V c 0 t : Vec Ideal S2000x64 .f32) y
      = (V c main_v88 : Vec Ideal S50000x64 .f32) (((cfg7.win 4).blk t).view.emb y) := by
  obtain ⟨e00, e01, -, -, -, -, -, e40, e41⟩ := idx7 t
  show V c main_v88 (((cfg7.win 0).blk t).view.emb y) = V c main_v88 (((cfg7.win 4).blk t).view.emb y)
  refine congrArg (V c main_v88) (funext fun a => Fin.ext ?_)
  match a with
  | ⟨0, _⟩ => show win7_0.index t (0 : Fin 2) * 2000 + 1 * (y 0).val = win7_4.index t (0 : Fin 2) * 2000 + 1 * (y 0).val; omega
  | ⟨1, _⟩ => show win7_0.index t (1 : Fin 2) * 64 + 1 * (y 1).val = win7_4.index t (1 : Fin 2) * 64 + 1 * (y 1).val; omega

/-- So is the projected rows' block. -/
theorem rows7 (c : Dev nD) (t : Fin cfg7.N) (y : S2000x64.Idx) :
    (iblk7 V c 1 t : Vec Ideal S2000x64 .f32) y
      = (V c main_v76 : Vec Ideal S50000x64 .f32) (((cfg7.win 4).blk t).view.emb y) := by
  obtain ⟨-, -, e10, e11, -, -, -, e40, e41⟩ := idx7 t
  show V c main_v76 (((cfg7.win 1).blk t).view.emb y) = V c main_v76 (((cfg7.win 4).blk t).view.emb y)
  refine congrArg (V c main_v76) (funext fun a => Fin.ext ?_)
  match a with
  | ⟨0, _⟩ => show win7_1.index t (0 : Fin 2) * 2000 + 1 * (y 0).val = win7_4.index t (0 : Fin 2) * 2000 + 1 * (y 0).val; omega
  | ⟨1, _⟩ => show win7_1.index t (1 : Fin 2) * 64 + 1 * (y 1).val = win7_4.index t (1 : Fin 2) * 64 + 1 * (y 1).val; omega

/-- The degree column's block holds, at the entry's row, the column's entry of the row the output's block puts it in. -/
theorem col7 (c : Dev nD) (t : Fin cfg7.N) (y : S2000x64.Idx) :
    (iblk7 V c 2 t : Vec Ideal S2000x1 .f32) (ix2 (y 0 : Fin 2000) (0 : Fin 1))
      = (V c main_v17 : Vec Ideal S50000x1 .f32) (ix2 ((((cfg7.win 4).blk t).view.emb y) 0 : Fin 50000) (0 : Fin 1)) := by
  obtain ⟨-, -, -, -, e20, e21, -, e40, e41⟩ := idx7 t
  show V c main_v17 (((cfg7.win 2).blk t).view.emb (ix2 (y 0 : Fin 2000) (0 : Fin 1)))
    = V c main_v17 (ix2 ((((cfg7.win 4).blk t).view.emb y) 0 : Fin 50000) (0 : Fin 1))
  refine congrArg (V c main_v17) (funext fun a => Fin.ext ?_)
  match a with
  | ⟨0, _⟩ => show win7_2.index t (0 : Fin 2) * 2000 + 1 * (y 0).val = win7_4.index t (0 : Fin 2) * 2000 + 1 * (y 0).val; omega
  | ⟨1, _⟩ => show win7_2.index t (1 : Fin 2) * 1 + 1 * 0 = 0; omega

/-- The bias's block is the whole bias: at the entry's column it is the bias of the output's column. -/
theorem bias7 (c : Dev nD) (t : Fin cfg7.N) (y : S2000x64.Idx) :
    (iblk7 V c 3 t : Vec Ideal S64 .f32) (ix1 (y 1 : Fin 64))
      = (V c main_arg10 : Vec Ideal S64 .f32) (ix1 ((((cfg7.win 4).blk t).view.emb y) 1 : Fin 64)) := by
  obtain ⟨-, -, -, -, -, -, e30, e40, e41⟩ := idx7 t
  show V c main_arg10 (((cfg7.win 3).blk t).view.emb (ix1 (y 1 : Fin 64)))
    = V c main_arg10 (ix1 ((((cfg7.win 4).blk t).view.emb y) 1 : Fin 64))
  refine congrArg (V c main_arg10) (funext fun a => Fin.ext ?_)
  match a with
  | ⟨0, _⟩ => show win7_3.index t (0 : Fin 1) * 64 + 1 * (y 1).val = win7_4.index t (1 : Fin 2) * 64 + 1 * (y 1).val; omega

/-- What point `t` writes back is block `t` of `combine` of the arrays as the region finds them. -/
theorem flushed7_eq (c : Dev nD) (t : Fin cfg7.N) :
    (dat7 (F := Ideal) V c).flushed 4 t = ((cfg7.win 4).blk t).view.read (Elt Ideal)
      (Cert.Gcn.combine Cert.Gcn.tanhAct (V c main_v88) (V c main_v76) (V c main_v17) (V c main_arg10)) := by
  show (cfg7.win 4).cut (grid7.coords t) ((dat7 V c).after 4 t) = _
  rw [after7_4]
  unfold out7_4
  rw [View.canon_unit_zero combine_off2]
  simp only [View.ld_unit_zero (S := S2000x64) combine_off2, View.ld_unit_zero (S := S2000x1) combine_off2,
    View.ld_unit_zero (S := S64) combine_off1]
  rw [k7_pay1_eq]
  funext y
  exact combine_at Cert.Gcn.tanhAct (iblk7 V c 0 t) (iblk7 V c 1 t) (iblk7 V c 2 t) (iblk7 V c 3 t)
    (V c main_v88) (V c main_v76) (V c main_v17) (V c main_arg10) y (((cfg7.win 4).blk t).view.emb y)
    (agg7 V c t y) (rows7 V c t y) (col7 V c t y) (bias7 V c t y)

/-- An index of the result array is in point `t`'s block iff each coordinate is in the block's range on its axis. -/
theorem mem_blk7 (t : Fin cfg7.N) (i : S50000x64.Idx) :
    i ∈ ((cfg7.win 4).blk t).view.set ↔ ∀ a : Fin 2, win7_4.index t a * S2000x64.size a ≤ (i a).val
      ∧ (i a).val < win7_4.index t a * S2000x64.size a + S2000x64.size a := by
  show i ∈ ((View.whole main_v89).slice (win7_4.rect t)).set ↔ _
  rw [View.set_slice_whole, Rect.mem_set_unit]
  exact Iff.rfl

/-- Every index of the result array is in the block of the point `row / 2000`, which is written back. -/
theorem cover7 (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 25 := N_7
  have ht : (i 0).val / 2000 < cfg7.N := by rw [hN]; omega
  obtain ⟨-, -, -, -, -, -, -, e40, e41⟩ := idx7 ⟨(i 0).val / 2000, ht⟩
  have e40' : win7_4.index ⟨(i 0).val / 2000, ht⟩ (0 : Fin 2) = (i 0).val / 2000 := e40
  refine ⟨⟨(i 0).val / 2000, ht⟩, flush7_4 _, ?_⟩
  rw [mem_blk7]
  intro a
  match a with
  | ⟨0, _⟩ =>
    show win7_4.index ⟨(i 0).val / 2000, ht⟩ (0 : Fin 2) * 2000 ≤ (i 0).val
      ∧ (i 0).val < win7_4.index ⟨(i 0).val / 2000, ht⟩ (0 : Fin 2) * 2000 + 2000
    omega
  | ⟨1, _⟩ =>
    show win7_4.index ⟨(i 0).val / 2000, ht⟩ (1 : Fin 2) * 64 ≤ (i 1).val
      ∧ (i 1).val < win7_4.index ⟨(i 0).val / 2000, ht⟩ (1 : Fin 2) * 64 + 64
    omega

/-- The result array after the region: `combine` of the arrays the region reads, as it finds them. -/
theorem final7 (c : Dev nD) : (dat7 (F := Ideal) V c).arrAt 4 cfg7.N
    = Cert.Gcn.combine Cert.Gcn.tanhAct (V c main_v88) (V c main_v76) (V c main_v17) (V c main_arg10) :=
  (dat7 (F := Ideal) V c).arrAt_eq_of_cover 4 _ (fun t _ => flushed7_eq V c t) cover7

end Cert.KernelIdeal.Reg

end
-- ==== Proof.Region8.lean ====
/-
  The fused head, from its blocks to its array.

  The kernel walks the 50000 rows of the two branch results in 25 blocks of 2000 rows. At block t it holds rows
  2000·t … 2000·t + 1999 of each of the two 64-column arrays, the whole 64 × 1 weight column and the one-entry bias,
  and writes back the same rows of the one-column result. Entry (r, 0) of a block's result is the sum over q of
  (first (r, q) · second (r, q)) · weight (q, 0), plus the bias: it reads row r of the two blocks and nothing else of
  them, so row 2000·t + r of the result depends only on row 2000·t + r of the two arrays. Every row lies in exactly
  the block of its quotient by 2000, so after the last block the result array is the head of the two whole arrays.
-/
import proofs.«125793_j59425167508077_1_alg».proof.Proof.Gen.KernelIdeal.Frame
import proofs.«125793_j59425167508077_1_alg».proof.Proof.DotBlocks
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- One block's result is the head of the two blocks of rows, the weight column and the bias. -/
theorem pay8 (x0 x1 : Vec Ideal S2000x64 .f32) (x2 : Vec Ideal S64x1 .f32) (x3 : Vec Ideal S1 .f32) :
    k8_pay1 (F := Ideal) x0 x1 x2 x3 = Cert.Gcn.head x0 x1 x2 x3 := by
  unfold k8_pay1
  exact Cert.Gcn.Blocks.head_block dot_S2000x64_S64x1_S2000x1_1_0_0_1_n_n rfl rfl rfl rfl rfl rfl none
    bitsLt_bf16_f32 shapeCasts_S2000x64_S2000x64 shapeCasts_S1_S1x1 broadcasts_S1x1_S2000x1 x0 x1 x2 x3

/-- The windows' index maps over the grid: the two row windows and the result window sit at block row t, column
    block 0; the weight column and the bias are whole at every point. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 1) = 0
    ∧ win8_4.index t (0 : Fin 2) = t.val ∧ win8_4.index t (1 : Fin 2) = 0 :=
  (by decide +kernel : ∀ t : Fin grid8.N, _)

/-- Entry z of the first row block at point t is the first array's entry in row 2000·t + (row of z), same column. -/
theorem rowsA8 (c : Dev nD) (t : Fin cfg8.N) (z : S2000x64.Idx) (k : S50000x64.Idx)
    (hk0 : (k 0).val = 2000 * t.val + (z 0).val) (hk1 : (k 1).val = (z 1).val) :
    (iblk8 V c 0 t : Vec Ideal S2000x64 .f32) z = (V c main_v61 : S50000x64.Idx → Elt Ideal .f32) k := by
  obtain ⟨e0, e1, -, -, -, -, -, -, -⟩ := idx8 t
  unfold iblk8
  rw [View.read_apply]
  show V c main_v61 _ = V c main_v61 _
  refine congrArg (V c main_v61) (funext fun a => Fin.ext ?_)
  match a with
  | ⟨0, _⟩ => show win8_0.index t (0 : Fin 2) * 2000 + 1 * (z 0).val = (k 0).val; rw [e0, hk0]; omega
  | ⟨1, _⟩ => show win8_0.index t (1 : Fin 2) * 64 + 1 * (z 1).val = (k 1).val; rw [e1, hk1]; omega

/-- Entry z of the second row block at point t is the second array's entry in row 2000·t + (row of z), same column. -/
theorem rowsB8 (c : Dev nD) (t : Fin cfg8.N) (z : S2000x64.Idx) (k : S50000x64.Idx)
    (hk0 : (k 0).val = 2000 * t.val + (z 0).val) (hk1 : (k 1).val = (z 1).val) :
    (iblk8 V c 1 t : Vec Ideal S2000x64 .f32) z = (V c main_v89 : S50000x64.Idx → Elt Ideal .f32) k := by
  obtain ⟨-, -, e2, e3, -, -, -, -, -⟩ := idx8 t
  unfold iblk8
  rw [View.read_apply]
  show V c main_v89 _ = V c main_v89 _
  refine congrArg (V c main_v89) (funext fun a => Fin.ext ?_)
  match a with
  | ⟨0, _⟩ => show win8_1.index t (0 : Fin 2) * 2000 + 1 * (z 0).val = (k 0).val; rw [e2, hk0]; omega
  | ⟨1, _⟩ => show win8_1.index t (1 : Fin 2) * 64 + 1 * (z 1).val = (k 1).val; rw [e3, hk1]; omega

/-- The weight block at every point is the weight column. -/
theorem weights8 (c : Dev nD) (t : Fin cfg8.N) (z : S64x1.Idx) :
    (iblk8 V c 2 t : Vec Ideal S64x1 .f32) z = (V c main_arg11 : S64x1.Idx → Elt Ideal .f32) z := by
  obtain ⟨-, -, -, -, e4, e5, -, -, -⟩ := idx8 t
  unfold iblk8
  rw [View.read_apply]
  show V c main_arg11 _ = V c main_arg11 _
  refine congrArg (V c main_arg11) (funext fun a => Fin.ext ?_)
  match a with
  | ⟨0, _⟩ => show win8_2.index t (0 : Fin 2) * 64 + 1 * (z 0).val = (z 0).val; rw [e4]; omega
  | ⟨1, _⟩ => show win8_2.index t (1 : Fin 2) * 1 + 1 * (z 1).val = (z 1).val; rw [e5]; omega

/-- The bias block at every point is the bias. -/
theorem bias8 (c : Dev nD) (t : Fin cfg8.N) (z : S1.Idx) :
    (iblk8 V c 3 t : Vec Ideal S1 .f32) z = (V c main_arg12 : S1.Idx → Elt Ideal .f32) z := by
  obtain ⟨-, -, -, -, -, -, e6, -, -⟩ := idx8 t
  unfold iblk8
  rw [View.read_apply]
  show V c main_arg12 _ = V c main_arg12 _
  refine congrArg (V c main_arg12) (funext fun a => Fin.ext ?_)
  match a with
  | ⟨0, _⟩ => show win8_3.index t (0 : Fin 1) * 1 + 1 * (z 0).val = (z 0).val; rw [e6]; omega

/-- What point t writes back is block t of the head of the two whole arrays. -/
theorem flushed8 (c : Dev nD) (t : Fin cfg8.N) :
    (dat8 (F := Ideal) V c).flushed 4 t
      = ((cfg8.win 4).blk t).view.read (Elt Ideal)
          (Cert.Gcn.head (V c main_v61 : Cert.Gcn.Mat 50000 64) (V c main_v89 : Cert.Gcn.Mat 50000 64)
            (V c main_arg11 : Cert.Gcn.Mat 64 1) (V c main_arg12 : Cert.Gcn.Vc 1)) := by
  show (cfg8.win 4).cut (grid8.coords t) ((dat8 (F := Ideal) V c).after 4 t) = _
  rw [after8_4]
  unfold out8_4
  rw [View.canon_unit_zero Cert.Gcn.Blocks.zero2]
  simp only [View.ld_unit_zero (S := S2000x64) Cert.Gcn.Blocks.zero2, View.ld_unit_zero (S := S64x1) Cert.Gcn.Blocks.zero2,
    View.ld_unit_zero (S := S1) Cert.Gcn.Blocks.zero1]
  rw [pay8]
  obtain ⟨-, -, -, -, -, -, -, e7, e8⟩ := idx8 t
  funext y
  show Cert.Gcn.head (iblk8 V c 0 t : Vec Ideal S2000x64 .f32) (iblk8 V c 1 t : Vec Ideal S2000x64 .f32)
      (iblk8 V c 2 t : Vec Ideal S64x1 .f32) (iblk8 V c 3 t : Vec Ideal S1 .f32) y
    = Cert.Gcn.head (V c main_v61 : Cert.Gcn.Mat 50000 64) (V c main_v89 : Cert.Gcn.Mat 50000 64)
        (V c main_arg11 : Cert.Gcn.Mat 64 1) (V c main_arg12 : Cert.Gcn.Vc 1) (((cfg8.win 4).blk t).view.emb y)
  unfold Cert.Gcn.head
  have hrow : (((cfg8.win 4).blk t).view.emb y 0).val = 2000 * t.val + (y 0).val := by
    show win8_4.index t (0 : Fin 2) * 2000 + 1 * (y 0).val = _
    rw [e7]; omega
  refine congrArg₂ (· + ·) (Finset.sum_congr rfl fun q _ => ?_) (bias8 V c t _)
  refine congrArg₂ (· * ·) (congrArg₂ (· * ·) ?_ ?_) ?_
  · exact rowsA8 V c t _ _ hrow rfl
  · exact rowsB8 V c t _ _ hrow rfl
  · refine (weights8 V c t _).trans (congrArg (V c main_arg11) (funext fun a => Fin.ext ?_))
    match a with
    | ⟨0, _⟩ => rfl
    | ⟨1, _⟩ => show (y 1).val = win8_4.index t (1 : Fin 2) * 1 + 1 * (y 1).val; rw [e8]; omega

/-- An index of the result array is in point t's block iff each coordinate is in the block's range on its axis. -/
theorem mem_blk8 (t : Fin cfg8.N) (i : S50000x1.Idx) :
    i ∈ ((cfg8.win 4).blk t).view.set ↔ ∀ a : Fin 2, win8_4.index t a * S2000x1.size a ≤ (i a).val ∧ (i a).val < win8_4.index t a * S2000x1.size a + S2000x1.size a := by
  show i ∈ ((View.whole main_v90).slice (win8_4.rect t)).set ↔ _
  rw [View.set_slice_whole, Rect.mem_set_unit]
  exact Iff.rfl

/-- Every row of the result array is written by the point of its quotient by 2000. -/
theorem cover8 (i : S50000x1.Idx) :
    ∃ t : Fin cfg8.N, (cfg8.win 4).flush t = true ∧ i ∈ ((cfg8.win 4).blk t).view.set := by
  have hN : cfg8.N = 25 := N_8
  have hi0 : (i 0).val < 50000 := (i 0).isLt
  have hi1 : (i 1).val < 1 := (i 1).isLt
  let t : Fin cfg8.N := ⟨(i 0).val / 2000, by rw [hN]; omega⟩
  have ht : t.val = (i 0).val / 2000 := rfl
  obtain ⟨-, -, -, -, -, -, -, e7, e8⟩ := idx8 t
  refine ⟨t, flush8_4 t, ?_⟩
  rw [mem_blk8]
  intro a
  match a with
  | ⟨0, _⟩ => show win8_4.index t (0 : Fin 2) * 2000 ≤ (i 0).val ∧ (i 0).val < win8_4.index t (0 : Fin 2) * 2000 + 2000; rw [e7, ht]; omega
  | ⟨1, _⟩ => show win8_4.index t (1 : Fin 2) * 1 ≤ (i 1).val ∧ (i 1).val < win8_4.index t (1 : Fin 2) * 1 + 1; rw [e8]; omega

/-- After the region the result array is the head of the two branch results, the weight column and the bias. -/
theorem final8 (c : Dev nD) :
    (dat8 (F := Ideal) V c).arrAt 4 cfg8.N
      = Cert.Gcn.head (V c main_v61 : Cert.Gcn.Mat 50000 64) (V c main_v89 : Cert.Gcn.Mat 50000 64)
          (V c main_arg11 : Cert.Gcn.Mat 64 1) (V c main_arg12 : Cert.Gcn.Vc 1) :=
  (dat8 (F := Ideal) V c).arrAt_eq_of_cover 4
    (Cert.Gcn.head (V c main_v61 : Cert.Gcn.Mat 50000 64) (V c main_v89 : Cert.Gcn.Mat 50000 64)
      (V c main_arg11 : Cert.Gcn.Mat 64 1) (V c main_arg12 : Cert.Gcn.Vc 1))
    (fun t _ => flushed8 V c t) cover8

end Cert.KernelIdeal.Reg

end
-- ==== Proof.KValue.lean ====
/-
  The kernel program's result array as ONE function of its arguments: the network of the specification, with the
  aggregation along the launched edges (`aggK`) and the column of squared inverse root degrees (`dcolK`).

  The fold of @main's sixteen segments is read from the launch forward. Each region leaves in its output array its
  specification's function of the arrays it found (the region lemmas, stated for any entry contents); each of those
  arrays is an argument as launched, a piece of node or edge data the first stretches computed (carried unchanged to
  every later boundary), the array the region before left, or the aggregate a host stretch made of it.
-/
import proofs.«125793_j59425167508077_1_alg».proof.Proof.KHostVal
import proofs.«125793_j59425167508077_1_alg».proof.Proof.Region0
import proofs.«125793_j59425167508077_1_alg».proof.Proof.Region1
import proofs.«125793_j59425167508077_1_alg».proof.Proof.Region2
import proofs.«125793_j59425167508077_1_alg».proof.Proof.Region3
import proofs.«125793_j59425167508077_1_alg».proof.Proof.Region4
import proofs.«125793_j59425167508077_1_alg».proof.Proof.Region5
import proofs.«125793_j59425167508077_1_alg».proof.Proof.Region6
import proofs.«125793_j59425167508077_1_alg».proof.Proof.Region7
import proofs.«125793_j59425167508077_1_alg».proof.Proof.Region8
import proofs.«125793_j59425167508077_1_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- At a boundary that holds the carried buffers as the first region found them: the edges' source and target nodes,
    the normalisation column and the column of squared inverse root degrees. -/
theorem carried_vals {W : Valuation τ sig (Elt Ideal)}
    (h : ∀ b ∈ carried, W (Proc.devRef .tc b) = W3 m ρ c (Proc.devRef .tc b)) :
    W (Proc.devRef .tc main_v1) = Cert.ReferenceIdeal.Read.val_main_v1 (F := Ideal) (edges m c)
    ∧ W (Proc.devRef .tc main_v3) = Cert.ReferenceIdeal.Read.val_main_v3 (F := Ideal) (edges m c)
    ∧ W (Proc.devRef .tc main_v33) = ncolK (edges m c)
    ∧ W (Proc.devRef .tc main_v17) = dcolK (edges m c) :=
  ⟨(h main_v1 (by decide)).trans (w3_v1 m ρ c), (h main_v3 (by decide)).trans (w3_v3 m ρ c),
   (h main_v33 (by decide)).trans (w3_v33 m ρ c), (h main_v17 (by decide)).trans (w3_v17 m ρ c)⟩

/-- … and every argument as launched. -/
theorem carried_arg {W : Valuation τ sig (Elt Ideal)}
    (h : ∀ b ∈ carried, W (Proc.devRef .tc b) = W3 m ρ c (Proc.devRef .tc b)) (b : Ref sig .tc)
    (hb : b ∈ ([main_arg0, main_arg1, main_arg2, main_arg3, main_arg4, main_arg5, main_arg6, main_arg7, main_arg8, main_arg9, main_arg10, main_arg11, main_arg12] : List (Ref sig .tc))) :
    W (Proc.devRef .tc b) = m ((c : Thread nD τ).loc b) :=
  (h b ((by decide : ∀ r ∈ ([main_arg0, main_arg1, main_arg2, main_arg3, main_arg4, main_arg5, main_arg6, main_arg7, main_arg8, main_arg9, main_arg10, main_arg11, main_arg12] : List (Ref sig .tc)), r ∈ carried) b hb)).trans (arg_at3 m ρ c b hb)

theorem same3 (b : Ref sig .tc) (hb : b ∈ carried) : W3 m ρ c (Proc.devRef .tc b) = W3 m ρ c (Proc.devRef .tc b) := rfl

/-! ## The branch of the first feature array -/

theorem v34_at4 : W4 m ρ c (Proc.devRef .tc main_v34) = Cert.Gcn.proj (m ((c : Thread nD τ).loc main_arg0) : Cert.Gcn.Mat 50000 128) (m ((c : Thread nD τ).loc main_arg3) : Cert.Gcn.Mat 128 64) := by
  rw [show W4 m ρ c (Proc.devRef .tc main_v34) = (dat0 (V3 m ρ) c).arrAt 2 cfg0.N from W4_arr m ρ c 2, Cert.KernelIdeal.Reg.final0 (V3 m ρ) c]
  rw [show V3 m ρ c main_arg0 = (m ((c : Thread nD τ).loc main_arg0) : Cert.Gcn.Mat 50000 128) from arg_at3 m ρ c main_arg0 (by decide),
    show V3 m ρ c main_arg3 = m ((c : Thread nD τ).loc main_arg3) from arg_at3 m ρ c main_arg3 (by decide)]

theorem v47_at6 : W6 m ρ c (Proc.devRef .tc main_v47) = (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) := by
  rw [show W6 m ρ c (Proc.devRef .tc main_v47) = (dat1 (V5 m ρ) c).arrAt 4 cfg1.N from W6_arr m ρ c 4, Cert.KernelIdeal.Reg.final1 (V5 m ρ) c]
  have cv := carried_vals m ρ c (W := W4 m ρ c) (same4 m ρ c)
  have eh : W4 m ρ c (Proc.devRef .tc main_v34) = (Cert.Gcn.proj (m ((c : Thread nD τ).loc main_arg0) : Cert.Gcn.Mat 50000 128) (m ((c : Thread nD τ).loc main_arg3) : Cert.Gcn.Mat 128 64)) := v34_at4 m ρ c
  have e0 : V5 m ρ c main_v46 = (aggK (edges m c) : Cert.Gcn.Mat 50000 64 → Cert.Gcn.Mat 50000 64) (Cert.Gcn.proj (m ((c : Thread nD τ).loc main_arg0) : Cert.Gcn.Mat 50000 128) (m ((c : Thread nD τ).loc main_arg3) : Cert.Gcn.Mat 128 64)) :=
    (v46_of (W4 m ρ c)).trans (by rw [cv.1, cv.2.1, cv.2.2.1, eh]; rfl)
  have e1 : V5 m ρ c main_v34 = (Cert.Gcn.proj (m ((c : Thread nD τ).loc main_arg0) : Cert.Gcn.Mat 50000 128) (m ((c : Thread nD τ).loc main_arg3) : Cert.Gcn.Mat 128 64)) := (keep1 (W4 m ρ c) main_v34 (by decide)).trans eh
  have e2 : V5 m ρ c main_v17 = (dcolK (edges m c) : Cert.Gcn.Mat 50000 1) := (carried_vals m ρ c (W := W5 m ρ c) (same5 m ρ c)).2.2.2
  have e3 : V5 m ρ c main_arg4 = m ((c : Thread nD τ).loc main_arg4) := carried_arg m ρ c (W := W5 m ρ c) (same5 m ρ c) main_arg4 (by decide)
  rw [e0, e1, e2, e3]; rfl

theorem v48_at7 : W7 m ρ c (Proc.devRef .tc main_v48) = Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64) := by
  rw [show W7 m ρ c (Proc.devRef .tc main_v48) = (dat2 (V6 m ρ) c).arrAt 2 cfg2.N from W7_arr m ρ c 2, Cert.KernelIdeal.Reg.final2 (V6 m ρ) c]
  rw [show V6 m ρ c main_v47 = (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) from v47_at6 m ρ c,
    show V6 m ρ c main_arg5 = m ((c : Thread nD τ).loc main_arg5) from carried_arg m ρ c (W := W6 m ρ c) (same6 m ρ c) main_arg5 (by decide)]

theorem v61_at9 : W9 m ρ c (Proc.devRef .tc main_v61) = (Cert.Gcn.layer Cert.Gcn.tanhAct (aggK (edges m c) : Cert.Gcn.Mat 50000 64 → Cert.Gcn.Mat 50000 64) (dcolK (edges m c) : Cert.Gcn.Mat 50000 1) (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64) (m ((c : Thread nD τ).loc main_arg6) : Cert.Gcn.Vc 64)) := by
  rw [show W9 m ρ c (Proc.devRef .tc main_v61) = (dat3 (V8 m ρ) c).arrAt 4 cfg3.N from W9_arr m ρ c 4, Cert.KernelIdeal.Reg.final3 (V8 m ρ) c]
  have cv := carried_vals m ρ c (W := W7 m ρ c) (same7 m ρ c)
  have eh : W7 m ρ c (Proc.devRef .tc main_v48) = (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64)) := v48_at7 m ρ c
  have e0 : V8 m ρ c main_v60 = (aggK (edges m c) : Cert.Gcn.Mat 50000 64 → Cert.Gcn.Mat 50000 64) (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64)) :=
    (v60_of (W7 m ρ c)).trans (by rw [cv.1, cv.2.1, cv.2.2.1, eh]; rfl)
  have e1 : V8 m ρ c main_v48 = (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64)) := (keep3 (W7 m ρ c) main_v48 (by decide)).trans eh
  have e2 : V8 m ρ c main_v17 = (dcolK (edges m c) : Cert.Gcn.Mat 50000 1) := (carried_vals m ρ c (W := W8 m ρ c) (same8 m ρ c)).2.2.2
  have e3 : V8 m ρ c main_arg6 = m ((c : Thread nD τ).loc main_arg6) := carried_arg m ρ c (W := W8 m ρ c) (same8 m ρ c) main_arg6 (by decide)
  rw [e0, e1, e2, e3]; rfl

/-! ## The branch of the second feature array -/

theorem v62_at10 : W10 m ρ c (Proc.devRef .tc main_v62) = Cert.Gcn.proj (m ((c : Thread nD τ).loc main_arg1) : Cert.Gcn.Mat 50000 128) (m ((c : Thread nD τ).loc main_arg7) : Cert.Gcn.Mat 128 64) := by
  rw [show W10 m ρ c (Proc.devRef .tc main_v62) = (dat4 (V9 m ρ) c).arrAt 2 cfg4.N from W10_arr m ρ c 2, Cert.KernelIdeal.Reg.final4 (V9 m ρ) c]
  rw [show V9 m ρ c main_arg1 = (m ((c : Thread nD τ).loc main_arg1) : Cert.Gcn.Mat 50000 128) from carried_arg m ρ c (W := W9 m ρ c) (same9 m ρ c) main_arg1 (by decide),
    show V9 m ρ c main_arg7 = m ((c : Thread nD τ).loc main_arg7) from carried_arg m ρ c (W := W9 m ρ c) (same9 m ρ c) main_arg7 (by decide)]

theorem v75_at12 : W12 m ρ c (Proc.devRef .tc main_v75) = (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) := by
  rw [show W12 m ρ c (Proc.devRef .tc main_v75) = (dat5 (V11 m ρ) c).arrAt 4 cfg5.N from W12_arr m ρ c 4, Cert.KernelIdeal.Reg.final5 (V11 m ρ) c]
  have cv := carried_vals m ρ c (W := W10 m ρ c) (same10 m ρ c)
  have eh : W10 m ρ c (Proc.devRef .tc main_v62) = (Cert.Gcn.proj (m ((c : Thread nD τ).loc main_arg1) : Cert.Gcn.Mat 50000 128) (m ((c : Thread nD τ).loc main_arg7) : Cert.Gcn.Mat 128 64)) := v62_at10 m ρ c
  have e0 : V11 m ρ c main_v74 = (aggK (edges m c) : Cert.Gcn.Mat 50000 64 → Cert.Gcn.Mat 50000 64) (Cert.Gcn.proj (m ((c : Thread nD τ).loc main_arg1) : Cert.Gcn.Mat 50000 128) (m ((c : Thread nD τ).loc main_arg7) : Cert.Gcn.Mat 128 64)) :=
    (v74_of (W10 m ρ c)).trans (by rw [cv.1, cv.2.1, cv.2.2.1, eh]; rfl)
  have e1 : V11 m ρ c main_v62 = (Cert.Gcn.proj (m ((c : Thread nD τ).loc main_arg1) : Cert.Gcn.Mat 50000 128) (m ((c : Thread nD τ).loc main_arg7) : Cert.Gcn.Mat 128 64)) := (keep5 (W10 m ρ c) main_v62 (by decide)).trans eh
  have e2 : V11 m ρ c main_v17 = (dcolK (edges m c) : Cert.Gcn.Mat 50000 1) := (carried_vals m ρ c (W := W11 m ρ c) (same11 m ρ c)).2.2.2
  have e3 : V11 m ρ c main_arg8 = m ((c : Thread nD τ).loc main_arg8) := carried_arg m ρ c (W := W11 m ρ c) (same11 m ρ c) main_arg8 (by decide)
  rw [e0, e1, e2, e3]; rfl

theorem v76_at13 : W13 m ρ c (Proc.devRef .tc main_v76) = Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64) := by
  rw [show W13 m ρ c (Proc.devRef .tc main_v76) = (dat6 (V12 m ρ) c).arrAt 2 cfg6.N from W13_arr m ρ c 2, Cert.KernelIdeal.Reg.final6 (V12 m ρ) c]
  rw [show V12 m ρ c main_v75 = (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) from v75_at12 m ρ c,
    show V12 m ρ c main_arg9 = m ((c : Thread nD τ).loc main_arg9) from carried_arg m ρ c (W := W12 m ρ c) (same12 m ρ c) main_arg9 (by decide)]

theorem v89_at15 : W15 m ρ c (Proc.devRef .tc main_v89) = (Cert.Gcn.layer Cert.Gcn.tanhAct (aggK (edges m c) : Cert.Gcn.Mat 50000 64 → Cert.Gcn.Mat 50000 64) (dcolK (edges m c) : Cert.Gcn.Mat 50000 1) (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64) (m ((c : Thread nD τ).loc main_arg10) : Cert.Gcn.Vc 64)) := by
  rw [show W15 m ρ c (Proc.devRef .tc main_v89) = (dat7 (V14 m ρ) c).arrAt 4 cfg7.N from W15_arr m ρ c 4, Cert.KernelIdeal.Reg.final7 (V14 m ρ) c]
  have cv := carried_vals m ρ c (W := W13 m ρ c) (same13 m ρ c)
  have eh : W13 m ρ c (Proc.devRef .tc main_v76) = (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64)) := v76_at13 m ρ c
  have e0 : V14 m ρ c main_v88 = (aggK (edges m c) : Cert.Gcn.Mat 50000 64 → Cert.Gcn.Mat 50000 64) (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64)) :=
    (v88_of (W13 m ρ c)).trans (by rw [cv.1, cv.2.1, cv.2.2.1, eh]; rfl)
  have e1 : V14 m ρ c main_v76 = (Cert.Gcn.proj (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64)) := (keep7 (W13 m ρ c) main_v76 (by decide)).trans eh
  have e2 : V14 m ρ c main_v17 = (dcolK (edges m c) : Cert.Gcn.Mat 50000 1) := (carried_vals m ρ c (W := W14 m ρ c) (same14 m ρ c)).2.2.2
  have e3 : V14 m ρ c main_arg10 = m ((c : Thread nD τ).loc main_arg10) := carried_arg m ρ c (W := W14 m ρ c) (same14 m ρ c) main_arg10 (by decide)
  rw [e0, e1, e2, e3]; rfl

/-! ## The head -/

/-- The first branch's result reaches the last region unchanged: no later stretch or region writes it. -/
theorem v61_at15 : W15 m ρ c (Proc.devRef .tc main_v61) = (Cert.Gcn.layer Cert.Gcn.tanhAct (aggK (edges m c) : Cert.Gcn.Mat 50000 64 → Cert.Gcn.Mat 50000 64) (dcolK (edges m c) : Cert.Gcn.Mat 50000 1) (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64) (m ((c : Thread nD τ).loc main_arg6) : Cert.Gcn.Vc 64)) :=
  (reg7_keep m ρ c main_v61 (by decide)).trans ((keep7 (W13 m ρ c) main_v61 (by decide)).trans ((reg6_keep m ρ c main_v61 (by decide)).trans
    ((reg5_keep m ρ c main_v61 (by decide)).trans ((keep5 (W10 m ρ c) main_v61 (by decide)).trans ((reg4_keep m ρ c main_v61 (by decide)).trans (v61_at9 m ρ c))))))

/-- THE RESULT: what the last boundary holds for the result array is the network of the specification. -/
theorem result_value : W16 m ρ c (Proc.devRef .tc main_v90)
    = Cert.Gcn.net (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg1) : Cert.Gcn.Mat 50000 128) (m ((c : Thread nD τ).loc main_arg3) : Cert.Gcn.Mat 128 64) (m ((c : Thread nD τ).loc main_arg4) : Cert.Gcn.Vc 64) (m ((c : Thread nD τ).loc main_arg5) : Cert.Gcn.Mat 64 64) (m ((c : Thread nD τ).loc main_arg6) : Cert.Gcn.Vc 64) (m ((c : Thread nD τ).loc main_arg7) : Cert.Gcn.Mat 128 64) (m ((c : Thread nD τ).loc main_arg8) : Cert.Gcn.Vc 64) (m ((c : Thread nD τ).loc main_arg9) : Cert.Gcn.Mat 64 64) (m ((c : Thread nD τ).loc main_arg10) : Cert.Gcn.Vc 64) (m ((c : Thread nD τ).loc main_arg11) : Cert.Gcn.Mat 64 1) (m ((c : Thread nD τ).loc main_arg12) : Cert.Gcn.Vc 1) := by
  rw [show W16 m ρ c (Proc.devRef .tc main_v90) = (dat8 (V15 m ρ) c).arrAt 4 cfg8.N from W16_arr m ρ c 4, Cert.KernelIdeal.Reg.final8 (V15 m ρ) c]
  rw [show V15 m ρ c main_v61 = (Cert.Gcn.layer Cert.Gcn.tanhAct (aggK (edges m c) : Cert.Gcn.Mat 50000 64 → Cert.Gcn.Mat 50000 64) (dcolK (edges m c) : Cert.Gcn.Mat 50000 1) (Cert.Gcn.layer Cert.Gcn.rrelu (aggK (edges m c) : Cert.Gcn.Mat 50000 64 → Cert.Gcn.Mat 50000 64) (dcolK (edges m c) : Cert.Gcn.Mat 50000 1) (m ((c : Thread nD τ).loc main_arg0) : Cert.Gcn.Mat 50000 128) (m ((c : Thread nD τ).loc main_arg3) : Cert.Gcn.Mat 128 64) (m ((c : Thread nD τ).loc main_arg4) : Cert.Gcn.Vc 64)) (m ((c : Thread nD τ).loc main_arg5) : Cert.Gcn.Mat 64 64) (m ((c : Thread nD τ).loc main_arg6) : Cert.Gcn.Vc 64)) from v61_at15 m ρ c,
    show V15 m ρ c main_v89 = (Cert.Gcn.layer Cert.Gcn.tanhAct (aggK (edges m c) : Cert.Gcn.Mat 50000 64 → Cert.Gcn.Mat 50000 64) (dcolK (edges m c) : Cert.Gcn.Mat 50000 1) (Cert.Gcn.layer Cert.Gcn.rrelu (aggK (edges m c) : Cert.Gcn.Mat 50000 64 → Cert.Gcn.Mat 50000 64) (dcolK (edges m c) : Cert.Gcn.Mat 50000 1) (m ((c : Thread nD τ).loc main_arg1) : Cert.Gcn.Mat 50000 128) (m ((c : Thread nD τ).loc main_arg7) : Cert.Gcn.Mat 128 64) (m ((c : Thread nD τ).loc main_arg8) : Cert.Gcn.Vc 64)) (m ((c : Thread nD τ).loc main_arg9) : Cert.Gcn.Mat 64 64) (m ((c : Thread nD τ).loc main_arg10) : Cert.Gcn.Vc 64)) from v89_at15 m ρ c,
    show V15 m ρ c main_arg11 = m ((c : Thread nD τ).loc main_arg11) from carried_arg m ρ c (W := W15 m ρ c) (same15 m ρ c) main_arg11 (by decide),
    show V15 m ρ c main_arg12 = m ((c : Thread nD τ).loc main_arg12) from carried_arg m ρ c (W := W15 m ρ c) (same15 m ρ c) main_arg12 (by decide)]
  rfl

end Cert.KernelIdeal.Hand

end
-- ==== Proof.HostR.lean ====
/-
  The two host-side ingredients of a layer, as the reference spells them, each as ONE function of the edge array:
  the aggregation of projected rows along the edges (a scatter-add, by target node, of the source nodes' rows scaled by
  the edge's normalisation) and the column of squared inverse root degrees. Nothing here opens the scatter or the
  gather: the value proofs carry both as opaque functions.
-/
import proofs.«125793_j59425167508077_1_alg».proof.Proof.RefReadP
import proofs.«125793_j59425167508077_1_alg».proof.Proof.Spec

noncomputable section

namespace Cert.ReferenceIdeal.Hand

open Cert.ReferenceIdeal Cert.ReferenceIdeal.Read Idealize.ShloMosaic Idealize.ShloMosaic.TcCoe

/-- The edge array: row 0 the source nodes, row 1 the target nodes. -/
abbrev EI : Type := (⟨S2x800000, .i32⟩ : BufTy).Contents (Elt Ideal)

/-- Rows of `h` gathered at the edges' (wrapped) source nodes, each scaled by its edge's normalisation
    `dinv[src]·dinv[dst]`, summed into the rows of the edges' target nodes, onto zeros. -/
def agg (x2 : EI) (h : Cert.Gcn.Mat 50000 64) : Cert.Gcn.Mat 50000 64 :=
  Host.scatterAdd (F := Ideal) scatter_S50000x64_S800000x1_S800000x64_1_0_0_1 (val_main_v42 (F := Ideal)) (val_main_v43 (F := Ideal) x2)
    (mulf (Host.gather gather_S50000x64_S800000x1_S800000x64_1_0_n_n_0_1_164 h (val_main_v37 (F := Ideal) x2)) (val_main_v40 (F := Ideal) x2))

/-- The column of squared inverse root degrees `dinv·dinv`, one entry per node. -/
def dcol (x2 : EI) : Cert.Gcn.Mat 50000 1 := val_main_v46 (F := Ideal) x2

end Cert.ReferenceIdeal.Hand

end
-- ==== Proof.Bridge.lean ====
/-
  The aggregation and the degree column are the same functions of the edge array in the two programs.

  Both programs gather the projected rows at the edges' wrapped source nodes, scale them by the edge's normalisation and
  scatter-add them by target node; they differ only in how a vector becomes a column — the kernel program reshapes
  `[a]` to `[a, 1]` where the reference broadcasts along a new unit axis — and a column read at `(i, 0)` is the vector
  at `i` either way. Everything else is the same operations of the same operands, under the two programs' own names for
  the same shapes and dimension records.
-/
import proofs.«125793_j59425167508077_1_alg».proof.Proof.KHostVal
import proofs.«125793_j59425167508077_1_alg».proof.Proof.HostR
import proofs.«125793_j59425167508077_1_alg».proof.Proof.LibColumns

noncomputable section

namespace Cert.Bridge

open Idealize.ShloMosaic Idealize.ShloMosaic.ValueIdx

/-- A vector of 800000 entries reshaped to a column is the vector broadcast along a new unit axis. -/
theorem col_edges {α : Type} (v : Cert.KernelIdeal.S800000.Idx → α) :
    shapeCast Cert.KernelIdeal.S800000x1 v Cert.KernelIdeal.Gen.shapeCasts_S800000_S800000x1
      = broadcastInDim Cert.ReferenceIdeal.S800000x1 ![0] Cert.ReferenceIdeal.Gen.bcast_S800000_S800000x1_0 v := by
  funext j
  obtain ⟨p, q, rfl⟩ : ∃ (p : Fin 800000) (q : Fin 1), j = ix2 p q := ⟨j 0, j 1, eq_ix2 j⟩
  refine (Cert.LibColumns.shapeCast_a_a1_apply v _ p q).trans ?_
  exact (broadcastInDim_apply _ Cert.ReferenceIdeal.Gen.bcast_S800000_S800000x1_0 v (ix2 p q) (ix1 p) (fun a => match a with
    | ⟨0, _⟩ => by show p.val = if (800000 : Nat) = 1 then 0 else p.val; rw [if_neg (by decide)])).symm

/-- The same for the 50000 nodes. -/
theorem col_nodes {α : Type} (v : Cert.KernelIdeal.S50000.Idx → α) :
    shapeCast Cert.KernelIdeal.S50000x1 v Cert.KernelIdeal.Gen.shapeCasts_S50000_S50000x1
      = broadcastInDim Cert.ReferenceIdeal.S50000x1 ![0] Cert.ReferenceIdeal.Gen.bcast_S50000_S50000x1_0 v := by
  funext j
  obtain ⟨p, q, rfl⟩ : ∃ (p : Fin 50000) (q : Fin 1), j = ix2 p q := ⟨j 0, j 1, eq_ix2 j⟩
  refine (Cert.LibColumns.shapeCast_a_a1_apply v _ p q).trans ?_
  exact (broadcastInDim_apply _ Cert.ReferenceIdeal.Gen.bcast_S50000_S50000x1_0 v (ix2 p q) (ix1 p) (fun a => match a with
    | ⟨0, _⟩ => by show p.val = if (50000 : Nat) = 1 then 0 else p.val; rw [if_neg (by decide)])).symm

set_option maxHeartbeats 1000000 in
/-- The column of squared inverse root degrees: the kernel program's reshape is the reference's broadcast. -/
theorem dcol_eq (x2 : Cert.ReferenceIdeal.Hand.EI) : Cert.KernelIdeal.Hand.dcolK x2 = Cert.ReferenceIdeal.Hand.dcol x2 := by
  unfold Cert.KernelIdeal.Hand.dcolK Cert.ReferenceIdeal.Hand.dcol
  rw [col_nodes]
  rfl

set_option maxHeartbeats 1000000 in
/-- The aggregation along the edges: the same scatter-add of the same gathered, scaled rows. -/
theorem agg_eq (x2 : Cert.ReferenceIdeal.Hand.EI) (h : Cert.Gcn.Mat 50000 64) :
    Cert.KernelIdeal.Hand.aggK x2 h = Cert.ReferenceIdeal.Hand.agg x2 h := by
  unfold Cert.KernelIdeal.Hand.aggK Cert.KernelIdeal.Hand.aggT Cert.KernelIdeal.Hand.ncolK Cert.ReferenceIdeal.Hand.agg
  rw [col_edges]
  rfl

end Cert.Bridge

end
-- ==== Proof.RefValue1.lean ====
/-
  The reference recomputes, before each of its four aggregations, every quantity that depends on the edge array alone
  (inverse root degrees, edge normalisation, wrapped source and target columns, the zero array, the column of squared
  inverse root degrees). Each recomputation is the same chain of operations applied to the same edge array, so it is the
  first computation again; and each aggregation is then the one function `agg` of the edge array, applied to that
  layer's projected rows.
-/
import proofs.«125793_j59425167508077_1_alg».proof.Proof.HostR

noncomputable section

namespace Cert.ReferenceIdeal.Hand

open Cert.ReferenceIdeal Cert.ReferenceIdeal.Read Idealize.ShloMosaic Idealize.ShloMosaic.TcCoe Idealize.ShloMosaic.ValueIdx

set_option maxHeartbeats 400000 in
/-- Recomputation 1 of the inverse root degrees is the first computation. -/
theorem dinv1 (x2 : EI) : val_main_v70 (F := Ideal) x2 = val_main_v16 (F := Ideal) x2 := rfl

set_option maxHeartbeats 400000 in
/-- Recomputation 1 of the edge normalisation is the first computation. -/
theorem norm1 (x2 : EI) : val_main_v85 (F := Ideal) x2 = val_main_v31 (F := Ideal) x2 := rfl

set_option maxHeartbeats 400000 in
/-- Recomputation 1 of the wrapped source column is the first computation. -/
theorem src1 (x2 : EI) : val_main_v91 (F := Ideal) x2 = val_main_v37 (F := Ideal) x2 := rfl

set_option maxHeartbeats 400000 in
/-- Recomputation 1 of the normalisation spread over the feature axis is the first computation. -/
theorem nb1 (x2 : EI) : val_main_v94 (F := Ideal) x2 = val_main_v40 (F := Ideal) x2 := rfl

set_option maxHeartbeats 400000 in
/-- Recomputation 1 of the zero array is the first computation. -/
theorem zeros1 : val_main_v96 (F := Ideal) = val_main_v42 (F := Ideal) := rfl

set_option maxHeartbeats 400000 in
/-- Recomputation 1 of the target column is the first computation. -/
theorem tgt1 (x2 : EI) : val_main_v97 (F := Ideal) x2 = val_main_v43 (F := Ideal) x2 := rfl

set_option maxHeartbeats 400000 in
/-- Recomputation 1 of the column of squared inverse root degrees is the first computation. -/
theorem dcolc1 (x2 : EI) : val_main_v100 (F := Ideal) x2 = val_main_v46 (F := Ideal) x2 := rfl

set_option maxHeartbeats 400000 in
/-- Recomputation 2 of the inverse root degrees is the first computation. -/
theorem dinv2 (x2 : EI) : val_main_v120 (F := Ideal) x2 = val_main_v16 (F := Ideal) x2 := rfl

set_option maxHeartbeats 400000 in
/-- Recomputation 2 of the edge normalisation is the first computation. -/
theorem norm2 (x2 : EI) : val_main_v135 (F := Ideal) x2 = val_main_v31 (F := Ideal) x2 := rfl

set_option maxHeartbeats 400000 in
/-- Recomputation 2 of the wrapped source column is the first computation. -/
theorem src2 (x2 : EI) : val_main_v141 (F := Ideal) x2 = val_main_v37 (F := Ideal) x2 := rfl

set_option maxHeartbeats 400000 in
/-- Recomputation 2 of the normalisation spread over the feature axis is the first computation. -/
theorem nb2 (x2 : EI) : val_main_v144 (F := Ideal) x2 = val_main_v40 (F := Ideal) x2 := rfl

set_option maxHeartbeats 400000 in
/-- Recomputation 2 of the zero array is the first computation. -/
theorem zeros2 : val_main_v146 (F := Ideal) = val_main_v42 (F := Ideal) := rfl

set_option maxHeartbeats 400000 in
/-- Recomputation 2 of the target column is the first computation. -/
theorem tgt2 (x2 : EI) : val_main_v147 (F := Ideal) x2 = val_main_v43 (F := Ideal) x2 := rfl

set_option maxHeartbeats 400000 in
/-- Recomputation 2 of the column of squared inverse root degrees is the first computation. -/
theorem dcolc2 (x2 : EI) : val_main_v150 (F := Ideal) x2 = val_main_v46 (F := Ideal) x2 := rfl

set_option maxHeartbeats 400000 in
/-- Recomputation 3 of the inverse root degrees is the first computation. -/
theorem dinv3 (x2 : EI) : val_main_v174 (F := Ideal) x2 = val_main_v16 (F := Ideal) x2 := rfl

set_option maxHeartbeats 400000 in
/-- Recomputation 3 of the edge normalisation is the first computation. -/
theorem norm3 (x2 : EI) : val_main_v189 (F := Ideal) x2 = val_main_v31 (F := Ideal) x2 := rfl

set_option maxHeartbeats 400000 in
/-- Recomputation 3 of the wrapped source column is the first computation. -/
theorem src3 (x2 : EI) : val_main_v195 (F := Ideal) x2 = val_main_v37 (F := Ideal) x2 := rfl

set_option maxHeartbeats 400000 in
/-- Recomputation 3 of the normalisation spread over the feature axis is the first computation. -/
theorem nb3 (x2 : EI) : val_main_v198 (F := Ideal) x2 = val_main_v40 (F := Ideal) x2 := rfl

set_option maxHeartbeats 400000 in
/-- Recomputation 3 of the zero array is the first computation. -/
theorem zeros3 : val_main_v200 (F := Ideal) = val_main_v42 (F := Ideal) := rfl

set_option maxHeartbeats 400000 in
/-- Recomputation 3 of the target column is the first computation. -/
theorem tgt3 (x2 : EI) : val_main_v201 (F := Ideal) x2 = val_main_v43 (F := Ideal) x2 := rfl

set_option maxHeartbeats 400000 in
/-- Recomputation 3 of the column of squared inverse root degrees is the first computation. -/
theorem dcolc3 (x2 : EI) : val_main_v204 (F := Ideal) x2 = val_main_v46 (F := Ideal) x2 := rfl

set_option maxHeartbeats 400000 in
/-- The first aggregation is `agg` of the first projection. -/
theorem agg_v44 (x0 : (⟨S50000x128, .f32⟩ : BufTy).Contents (Elt Ideal)) (x2 : EI) (x3 : (⟨S128x64, .f32⟩ : BufTy).Contents (Elt Ideal)) :
    val_main_v44 (F := Ideal) x0 x2 x3 = agg x2 (val_main_v4 (F := Ideal) x0 x3) := rfl

set_option maxHeartbeats 400000 in
/-- The second aggregation is `agg` of that layer's projection. -/
theorem agg_v98 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v98 (F := Ideal) x0 x2 x3 x4 x5 = agg x2 (val_main_v58 (F := Ideal) x0 x2 x3 x4 x5) := by
  unfold val_main_v98 val_main_v95 val_main_v92 agg
  rw [zeros1, tgt1, src1, nb1]

set_option maxHeartbeats 400000 in
/-- The third aggregation is `agg` of that layer's projection. -/
theorem agg_v148 (x1 : (⟨S50000x128, .f32⟩ : BufTy).Contents (Elt Ideal)) (x2 : EI) (x7 : (⟨S128x64, .f32⟩ : BufTy).Contents (Elt Ideal)) :
    val_main_v148 (F := Ideal) x1 x2 x7 = agg x2 (val_main_v108 (F := Ideal) x1 x7) := by
  unfold val_main_v148 val_main_v145 val_main_v142 agg
  rw [zeros2, tgt2, src2, nb2]

set_option maxHeartbeats 400000 in
/-- The fourth aggregation is `agg` of that layer's projection. -/
theorem agg_v202 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) (x9 : (⟨S64x64, .f32⟩ : BufTy).Contents (Elt Ideal)) :
    val_main_v202 (F := Ideal) x1 x2 x7 x8 x9 = agg x2 (val_main_v162 (F := Ideal) x1 x2 x7 x8 x9) := by
  unfold val_main_v202 val_main_v199 val_main_v196 agg
  rw [zeros3, tgt3, src3, nb3]

end Cert.ReferenceIdeal.Hand

end
-- ==== Proof.RefValue2.lean ====
/-
  Each contraction of the reference is `proj`: entry (r, j) is the sum over q of the left operand at (r, q) times the
  weight at (q, j). Read at an entry, a contraction is that sum with its two index functions spelled coordinate by coordinate; each
  is the pair of coordinates `proj` reads.
-/
import proofs.«125793_j59425167508077_1_alg».proof.Proof.HostR

noncomputable section

namespace Cert.ReferenceIdeal.Hand

open Cert.ReferenceIdeal Cert.ReferenceIdeal.Read Idealize.ShloMosaic Idealize.ShloMosaic.TcCoe Idealize.ShloMosaic.ValueIdx

/-- The first projection of the first feature array. -/
theorem proj_v4 (x0 : (⟨S50000x128, .f32⟩ : BufTy).Contents (Elt Ideal)) (x3 : (⟨S128x64, .f32⟩ : BufTy).Contents (Elt Ideal)) :
    val_main_v4 (F := Ideal) x0 x3 = Cert.Gcn.proj (n := 50000) (k := 128) (h := 64) (x0) x3 := by
  funext i
  rw [val_main_v4_apply]
  unfold Cert.Gcn.proj
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- The second projection of the first branch, of its first layer's output. -/
theorem proj_v58 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v58 (F := Ideal) x0 x2 x3 x4 x5 = Cert.Gcn.proj (n := 50000) (k := 64) (h := 64) (val_main_v57 (F := Ideal) x0 x2 x3 x4) x5 := by
  funext i
  rw [val_main_v58_apply]
  unfold Cert.Gcn.proj
  refine Finset.sum_congr rfl fun k _ => ?_
  have el : lidx_main_v58 i k = ix2 (i 0) k := funext fun a => by match a with | ⟨0, _⟩ => rfl | ⟨1, _⟩ => rfl
  have er : ridx_main_v58 i k = ix2 k (i 1) := funext fun a => by match a with | ⟨0, _⟩ => rfl | ⟨1, _⟩ => rfl
  rw [el, er]
  rfl

/-- The first projection of the second feature array. -/
theorem proj_v108 (x1 : (⟨S50000x128, .f32⟩ : BufTy).Contents (Elt Ideal)) (x7 : (⟨S128x64, .f32⟩ : BufTy).Contents (Elt Ideal)) :
    val_main_v108 (F := Ideal) x1 x7 = Cert.Gcn.proj (n := 50000) (k := 128) (h := 64) (x1) x7 := by
  funext i
  rw [val_main_v108_apply]
  unfold Cert.Gcn.proj
  refine Finset.sum_congr rfl fun k _ => ?_
  have el : lidx_main_v108 i k = ix2 (i 0) k := funext fun a => by match a with | ⟨0, _⟩ => rfl | ⟨1, _⟩ => rfl
  have er : ridx_main_v108 i k = ix2 k (i 1) := funext fun a => by match a with | ⟨0, _⟩ => rfl | ⟨1, _⟩ => rfl
  rw [el, er]
  rfl

/-- The second projection of the second branch, of its first layer's output. -/
theorem proj_v162 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) (x9 : (⟨S64x64, .f32⟩ : BufTy).Contents (Elt Ideal)) :
    val_main_v162 (F := Ideal) x1 x2 x7 x8 x9 = Cert.Gcn.proj (n := 50000) (k := 64) (h := 64) (val_main_v161 (F := Ideal) x1 x2 x7 x8) x9 := by
  funext i
  rw [val_main_v162_apply]
  unfold Cert.Gcn.proj
  refine Finset.sum_congr rfl fun k _ => ?_
  have el : lidx_main_v162 i k = ix2 (i 0) k := funext fun a => by match a with | ⟨0, _⟩ => rfl | ⟨1, _⟩ => rfl
  have er : ridx_main_v162 i k = ix2 k (i 1) := funext fun a => by match a with | ⟨0, _⟩ => rfl | ⟨1, _⟩ => rfl
  rw [el, er]
  rfl

end Cert.ReferenceIdeal.Hand

end
-- ==== Proof.RefValue3.lean ====
/-
  Each layer's tail in the reference (self-loop term, bias, activation) is `combine`: read at an entry (r, j), the
  chain of elementwise operations and broadcasts is the activation of (aggregate + projected row times the node's squared
  inverse root degree) + bias, the broadcasts reading the degree column at (r, 0) and the bias at j.
-/
import proofs.«125793_j59425167508077_1_alg».proof.Proof.HostR

noncomputable section

namespace Cert.ReferenceIdeal.Hand

open Cert.ReferenceIdeal Cert.ReferenceIdeal.Read Idealize.ShloMosaic Idealize.ShloMosaic.TcCoe Idealize.ShloMosaic.ValueIdx

/-- `combine` read at the entry with coordinates `p`, `q`: the activation of aggregate plus projected row times the degree
    column at `(p, 0)`, plus the bias at `q`. -/
theorem combine_at {n h : Nat} (act : Ideal .f32 → Ideal .f32) (a x : Cert.Gcn.Mat n h) (d : Cert.Gcn.Mat n 1) (b : Cert.Gcn.Vc h)
    (p : Fin n) (q : Fin h) :
    Cert.Gcn.combine act a x d b (ix2 p q) = act ((a (ix2 p q) + x (ix2 p q) * d (ix2 p (0 : Fin 1))) + b (ix1 q)) := rfl

/-- The first layer of the first branch: leaky rectifier of aggregate plus self-loop term plus bias. -/
theorem combine_v57 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) :
    val_main_v57 (F := Ideal) x0 x2 x3 x4 = Cert.Gcn.combine (n := 50000) (h := 64) Cert.Gcn.rrelu (val_main_v44 (F := Ideal) x0 x2 x3) (val_main_v4 (F := Ideal) x0 x3) (val_main_v46 (F := Ideal) x2) x4 := by
  funext i
  obtain ⟨p, q, rfl⟩ : ∃ (p : Fin 50000) (q : Fin 64), i = ix2 p q := ⟨i 0, i 1, eq_ix2 i⟩
  have ed : idx_main_v47 (ix2 p q) = ix2 p (0 : Fin 1) := funext fun a => by match a with | ⟨0, _⟩ => rfl | ⟨1, _⟩ => rfl
  have eb : idx_main_v50 (idx_main_v51 (ix2 p q)) = ix1 q := funext fun a => by match a with | ⟨0, _⟩ => rfl
  rw [val_main_v57_apply, val_main_v54_apply, val_main_v53_apply, val_main_cst_11_apply, val_main_v56_apply, val_main_v55_apply, val_main_cst_12_apply, val_main_v52_apply, val_main_v51_apply, val_main_v50_apply, val_main_v49_apply, val_main_v48_apply, val_main_v47_apply, ed, eb]
  rfl

set_option maxHeartbeats 100000 in
/-- The second layer of the first branch: hyperbolic tangent of aggregate plus self-loop term plus bias. -/
theorem combine_v107 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v107 (F := Ideal) x0 x2 x3 x4 x5 x6 = Cert.Gcn.combine (n := 50000) (h := 64) Cert.Gcn.tanhAct (val_main_v98 (F := Ideal) x0 x2 x3 x4 x5) (val_main_v58 (F := Ideal) x0 x2 x3 x4 x5) (val_main_v100 (F := Ideal) x2) x6 := by
  funext i
  obtain ⟨p, q, rfl⟩ : ∃ (p : Fin 50000) (q : Fin 64), i = ix2 p q := ⟨i 0, i 1, eq_ix2 i⟩
  have ed : idx_main_v101 (ix2 p q) = ix2 p (0 : Fin 1) := funext fun a => by match a with | ⟨0, _⟩ => rfl | ⟨1, _⟩ => rfl
  have eb : idx_main_v104 (idx_main_v105 (ix2 p q)) = ix1 q := funext fun a => by match a with | ⟨0, _⟩ => rfl
  rw [combine_at, val_main_v107_apply, val_main_v106_apply, val_main_v105_apply, val_main_v104_apply, val_main_v103_apply, val_main_v102_apply, val_main_v101_apply, ed, eb]
  simp only [Ideal.hostUnary_tanh_def, Ideal.addf_def, Ideal.mulf_def, Cert.Gcn.tanhAct]

/-- The first layer of the second branch. -/
theorem combine_v161 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) :
    val_main_v161 (F := Ideal) x1 x2 x7 x8 = Cert.Gcn.combine (n := 50000) (h := 64) Cert.Gcn.rrelu (val_main_v148 (F := Ideal) x1 x2 x7) (val_main_v108 (F := Ideal) x1 x7) (val_main_v150 (F := Ideal) x2) x8 := by
  funext i
  obtain ⟨p, q, rfl⟩ : ∃ (p : Fin 50000) (q : Fin 64), i = ix2 p q := ⟨i 0, i 1, eq_ix2 i⟩
  have ed : idx_main_v151 (ix2 p q) = ix2 p (0 : Fin 1) := funext fun a => by match a with | ⟨0, _⟩ => rfl | ⟨1, _⟩ => rfl
  have eb : idx_main_v154 (idx_main_v155 (ix2 p q)) = ix1 q := funext fun a => by match a with | ⟨0, _⟩ => rfl
  rw [val_main_v161_apply, val_main_v158_apply, val_main_v157_apply, val_main_cst_39_apply, val_main_v160_apply, val_main_v159_apply, val_main_cst_40_apply, val_main_v156_apply, val_main_v155_apply, val_main_v154_apply, val_main_v153_apply, val_main_v152_apply, val_main_v151_apply, ed, eb]
  rfl

set_option maxHeartbeats 100000 in
/-- The second layer of the second branch. -/
theorem combine_v211 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v211 (F := Ideal) x1 x2 x7 x8 x9 x10 = Cert.Gcn.combine (n := 50000) (h := 64) Cert.Gcn.tanhAct (val_main_v202 (F := Ideal) x1 x2 x7 x8 x9) (val_main_v162 (F := Ideal) x1 x2 x7 x8 x9) (val_main_v204 (F := Ideal) x2) x10 := by
  funext i
  obtain ⟨p, q, rfl⟩ : ∃ (p : Fin 50000) (q : Fin 64), i = ix2 p q := ⟨i 0, i 1, eq_ix2 i⟩
  have ed : idx_main_v205 (ix2 p q) = ix2 p (0 : Fin 1) := funext fun a => by match a with | ⟨0, _⟩ => rfl | ⟨1, _⟩ => rfl
  have eb : idx_main_v208 (idx_main_v209 (ix2 p q)) = ix1 q := funext fun a => by match a with | ⟨0, _⟩ => rfl
  rw [combine_at, val_main_v211_apply, val_main_v210_apply, val_main_v209_apply, val_main_v208_apply, val_main_v207_apply, val_main_v206_apply, val_main_v205_apply, ed, eb]
  simp only [Ideal.hostUnary_tanh_def, Ideal.addf_def, Ideal.mulf_def, Cert.Gcn.tanhAct]

end Cert.ReferenceIdeal.Hand

end
-- ==== Proof.RefValue.lean ====
/-
  The reference, read as one function of its arguments, is the network of the specification: each layer is `layer` of
  the edge aggregation `agg` and the degree column `dcol` (projection, aggregation of the projected rows, self-loop term,
  bias, activation), the two branches' outputs are multiplied entry by entry inside the last contraction, and the bias of
  the head is read at its one entry.
-/
import proofs.«125793_j59425167508077_1_alg».proof.Proof.RefValue1
import proofs.«125793_j59425167508077_1_alg».proof.Proof.RefValue2
import proofs.«125793_j59425167508077_1_alg».proof.Proof.RefValue3

noncomputable section

namespace Cert.ReferenceIdeal.Hand

open Cert.ReferenceIdeal Cert.ReferenceIdeal.Read Idealize.ShloMosaic Idealize.ShloMosaic.TcCoe Idealize.ShloMosaic.ValueIdx

/-- First branch, first layer. -/
theorem layer_v57 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) :
    val_main_v57 (F := Ideal) x0 x2 x3 x4 = Cert.Gcn.layer Cert.Gcn.rrelu (agg x2) (dcol x2) x0 x3 x4 := by
  unfold Cert.Gcn.layer dcol
  rw [combine_v57, agg_v44, proj_v4]

/-- First branch, second layer, of the first layer's output. -/
theorem layer_v107 (x0 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v107 (F := Ideal) x0 x2 x3 x4 x5 x6 = Cert.Gcn.layer Cert.Gcn.tanhAct (agg x2) (dcol x2) (val_main_v57 (F := Ideal) x0 x2 x3 x4) x5 x6 := by
  unfold Cert.Gcn.layer dcol
  rw [combine_v107, agg_v98, proj_v58, dcolc1]

/-- Second branch, first layer. -/
theorem layer_v161 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) :
    val_main_v161 (F := Ideal) x1 x2 x7 x8 = Cert.Gcn.layer Cert.Gcn.rrelu (agg x2) (dcol x2) x1 x7 x8 := by
  unfold Cert.Gcn.layer dcol
  rw [combine_v161, agg_v148, proj_v108, dcolc2]

/-- Second branch, second layer, of the first layer's output. -/
theorem layer_v211 (x1 : (⟨S50000x128, .f32⟩ : BufTy).Contents (Elt Ideal)) (x2 : EI) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v211 (F := Ideal) x1 x2 x7 x8 x9 x10 = Cert.Gcn.layer Cert.Gcn.tanhAct (agg x2) (dcol x2) (val_main_v161 (F := Ideal) x1 x2 x7 x8) x9 x10 := by
  unfold Cert.Gcn.layer dcol
  rw [combine_v211, agg_v202, proj_v162, dcolc3]

/-- `head` read at the entry with coordinates `p`, `q`. -/
theorem head_at {n k : Nat} (ze xf : Cert.Gcn.Mat n k) (w : Cert.Gcn.Mat k 1) (b : Cert.Gcn.Vc 1) (p : Fin n) (q : Fin 1) :
    Cert.Gcn.head ze xf w b (ix2 p q) = (∑ j : Fin k, (ze (ix2 p j) * xf (ix2 p j)) * w (ix2 j q)) + b (ix1 (0 : Fin 1)) := rfl

/-- The result is the head of the two branches' outputs: the last contraction of their entrywise product, plus the bias. -/
theorem head_v216 (x0 x1 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) :
    val_main_v216 (F := Ideal) x0 x1 x2 x3 x4 x5 x6 x7 x8 x9 x10 x11 x12 = Cert.Gcn.head (n := 50000) (k := 64) (val_main_v107 (F := Ideal) x0 x2 x3 x4 x5 x6) (val_main_v211 (F := Ideal) x1 x2 x7 x8 x9 x10) x11 x12 := by
  funext i
  obtain ⟨p, q, rfl⟩ : ∃ (p : Fin 50000) (q : Fin 1), i = ix2 p q := ⟨i 0, i 1, eq_ix2 i⟩
  have eb : idx_main_v214 (idx_main_v215 (ix2 p q)) = ix1 (0 : Fin 1) := funext fun a => by match a with | ⟨0, _⟩ => rfl
  rw [head_at, val_main_v216_apply, val_main_v215_apply, val_main_v214_apply, val_main_v213_apply, eb, Ideal.addf_def]
  refine congrArg (· + x12 (ix1 (0 : Fin 1))) (Finset.sum_congr rfl fun k _ => ?_)
  have el : lidx_main_v213 (ix2 p q) k = ix2 p k := funext fun a => by match a with | ⟨0, _⟩ => rfl | ⟨1, _⟩ => rfl
  have er : ridx_main_v213 (ix2 p q) k = ix2 k q := funext fun a => by match a with | ⟨0, _⟩ => rfl | ⟨1, _⟩ => rfl
  rw [el, er, val_main_v212_apply, Ideal.mulf_def]

/-- The reference computes the network of the specification, with the edge aggregation `agg` and the degree column `dcol`. -/
theorem ref_eq (x0 x1 : (⟨S50000x128, .f32⟩ : BufTy).Contents (Elt Ideal)) (x2 : EI) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) :
    val_main_v216 (F := Ideal) x0 x1 x2 x3 x4 x5 x6 x7 x8 x9 x10 x11 x12 = Cert.Gcn.net (agg x2) (dcol x2) x0 x1 x3 x4 x5 x6 x7 x8 x9 x10 x11 x12 := by
  unfold Cert.Gcn.net
  rw [head_v216, layer_v107, layer_v57, layer_v211, layer_v161]

end Cert.ReferenceIdeal.Hand

end
-- ==== Proof.RefRun.lean ====
/-
  The reference program's run with its result at the last stage of its operations read one at a time: every weakly fair
  execution of the reference's @main terminates, the arguments unchanged and the result array at `val_main_v216` of the
  launched arguments (the composed term of the generated run, which IS that stage: the same operations of the same
  operands, named stage by stage).
-/
import proofs.«125793_j59425167508077_1_alg».proof.Proof.RefRunGenP
import proofs.«125793_j59425167508077_1_alg».proof.Proof.RefReadP

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 8192 in
/-- The run's composed term is the last stage. -/
theorem res_eq (m : (ℓ : Loc nD τ sig) → Buf (Elt F) ℓ) (c : Dev nD) :
    Cert.ReferenceIdeal.Value.res_main_v216 m c = Cert.ReferenceIdeal.Read.val_main_v216 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v216; rfl

/-- The reference's run, the result at the last stage. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v216) = Cert.ReferenceIdeal.Read.val_main_v216 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (res_eq m c), (h c).2⟩) (Cert.ReferenceIdeal.Value.run (F := F) m ρ)

end Cert.ReferenceIdeal.Hand

end
-- ==== Proof.lean ====
/-
  The certificate of a two-layer graph convolution network on two node-feature arrays, fused into one head: a kernel
  program of nine row-tiled regions (four projections `h · W`, four "aggregate + self-loop term + bias, then
  activation" regions, one fused "product, projection to one column, bias" head) with the edge aggregations on the
  host between them, against the plain reference.

  On the extended reals both programs compute ONE function of their arguments, the network `Cert.Gcn.net` of
  Proof/Spec.lean: a projection is the sum over the contracted coordinate in either program (a region's matrix product
  into a zero accumulator per row tile, the reference's `dot_general` on the whole array; the roundings to a narrower
  format on the way in are the identity here); the combine regions add the same three terms in the same order as the
  reference and apply the same leaky rectifier (slope the binary32 number nearest 11/48, the same word in both
  programs) or hyperbolic tangent; the edge aggregation (gather the source rows, scale by `dinv[src]·dinv[dst]`,
  scatter-add by target) and the degree computation are the same host operations of the same edge array in both
  programs and are carried through the proof as one opaque function `agg` and one column `d` — the only difference,
  a vector made a column by `reshape` in one program and by `broadcast_in_dim` in the other, is Proof/Bridge.lean. No
  law that needs finiteness is used (every operation is matched with the same operation of equal operands), so the
  precondition is never opened.

  Kernel side: each region's output array is its specification's function of the arrays the region finds
  (Proof/Region0 … Region8, for any entry contents); Proof/KHost.lean and KHostVal.lean say what the host stretches
  compute and what every segment leaves untouched; Proof/KValue.lean composes the sixteen segments; Proof/KRun.lean is the
  run with the result buffer read. Reference side: Proof/RefValue*.lean identify the reference's stages with the same
  network, Proof/RefRun.lean is its run. The three frames are the generated frame certificates and the reference's run
  with the result dropped; the idealization rewrote nothing, so `preserves` is trivial.
-/
import proofs.«125793_j59425167508077_1_alg».proof.Defs
import proofs.«125793_j59425167508077_1_alg».proof.Proof.Gen.Kernel
import proofs.«125793_j59425167508077_1_alg».proof.Proof.Gen.Kernel.Frame
import proofs.«125793_j59425167508077_1_alg».proof.Proof.Gen.KernelIdeal
import proofs.«125793_j59425167508077_1_alg».proof.Proof.Gen.KernelIdeal.Frame
import proofs.«125793_j59425167508077_1_alg».proof.Proof.Gen.ReferenceIdeal
import proofs.«125793_j59425167508077_1_alg».proof.Proof.Gen.Pre_finite_inputs
import proofs.«125793_j59425167508077_1_alg».proof.Proof.KRun
import proofs.«125793_j59425167508077_1_alg».proof.Proof.KValue
import proofs.«125793_j59425167508077_1_alg».proof.Proof.Bridge
import proofs.«125793_j59425167508077_1_alg».proof.Proof.RefValue
import proofs.«125793_j59425167508077_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Hand.ref_run (F := Ideal) m ρ)

/-- The idealization rewrote nothing. -/
theorem preserves : Cert.preserves_Kernel_KernelIdeal := trivial

/-- Both programs end with the network of the specification in their result arrays: the kernel program's with the
    aggregation and degree column as its host stretches spell them, the reference's with its own, and the two
    spellings are one function of the edge array. -/
theorem algebraic : Cert.algebraic_KernelIdeal_ReferenceIdeal := by
  intro m ρ m' ρ' _ hagree
  refine ⟨fun c => Cert.Gcn.net
      (Cert.KernelIdeal.Hand.aggK (Cert.KernelIdeal.Hand.edges m c) : Cert.Gcn.Mat 50000 64 → Cert.Gcn.Mat 50000 64)
      (Cert.KernelIdeal.Hand.dcolK (Cert.KernelIdeal.Hand.edges m c) : Cert.Gcn.Mat 50000 1)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.result_value m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Hand.ref_run (F := Ideal) m' ρ')
    obtain ⟨e0, e1, e2, e3, e4, e5, e6, e7, e8, e9, e10, e11, e12⟩ := hagree c
    rw [e0, e1, e2, e3, e4, e5, e6, e7, e8, e9, e10, e11, e12, Cert.ReferenceIdeal.Hand.ref_eq]
    have ea : Cert.ReferenceIdeal.Hand.agg (Cert.KernelIdeal.Hand.edges m c)
        = Cert.KernelIdeal.Hand.aggK (Cert.KernelIdeal.Hand.edges m c) :=
      funext fun h => (Cert.Bridge.agg_eq _ h).symm
    rw [ea, ← Cert.Bridge.dcol_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
